-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x1 : Shape := ⟨2, ![1, 1]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S_ : Shape := ⟨0, ![]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 33
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .bf16⟩
  | .hbm, ⟨8, _⟩ => ⟨S1x1, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S1x4096, .f32⟩
  | .hbm, ⟨14, _⟩ => ⟨S8192x4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1x1, .f32⟩
  | .local _ .vmem, ⟨9, _⟩ => ⟨S2048x256, .f32⟩
  | .local _ .vmem, ⟨10, _⟩ => ⟨S2048x256, .f32⟩
  | .local _ .vmem, ⟨11, _⟩ => ⟨S1024x256, .bf16⟩
  | .local _ .vmem, ⟨12, _⟩ => ⟨S1024x256, .bf16⟩
  | .local _ .vmem, ⟨13, _⟩ => ⟨S1x1024, .f32⟩
  | .local _ .vmem, ⟨14, _⟩ => ⟨S1x1024, .f32⟩
  | .local _ .vmem, ⟨15, _⟩ => ⟨S2048x1024, .f32⟩
  | .local _ .vmem, ⟨16, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨3, ![4, 4, 16], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1x1_S1x1_0_0 : ∀ a, (![0, 0] : Fin 2 → Nat) a + S1x1.size a ≤ S1x1.size a
  h_S1x1 : 0 < S1x1.numel
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  bcast_S_S4096 : S_.BroadcastsInDim S4096 (![] : Fin 0 → Fin S4096.rank)
  reducesTo_S4096_S_d0 : S4096.ReducesTo [0] S_
  h_S_ : 0 < S_.numel
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .bf16 = 32 ∨ (Rect.block (s := S4096x4096) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x4096.size a
  hwx1_0 : ∀ i : grid1.Coords, EltTy.bits .f32 = 32 ∨ (Rect.block (s := S8192x4096) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x4096.size a
  hwx1_1 : ∀ i : grid1.Coords, EltTy.bits .bf16 = 32 ∨ (Rect.block (s := S4096x4096) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .f32 = 32 ∨ (Rect.block (s := S8192x4096) S2048x1024.size (cc1_transform_3 i) (hinb1_3 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S4096x4096 : S_.BroadcastsInDim S4096x4096 (![] : Fin 0 → Fin S4096x4096.rank)
  bcast_S_S4096 : S_.BroadcastsInDim S4096 (![] : Fin 0 → Fin S4096.rank)
  reducesTo_S4096x4096_S_d0_1 : S4096x4096.ReducesTo [0, 1] S_
  h_S_ : 0 < S_.numel
  reducesTo_S4096_S_d0 : S4096.ReducesTo [0] S_
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KRun.lean ====
import proofs.«148630_j35313221108256_2_alg».proof.Proof.Gen.KernelIdeal.Frame

/-!
# The idealized kernel's run, with its two results named

The program is two pipelined regions with host operations between and after them. Its run terminates, nothing
faulting, and the memory it ends in holds, at every buffer that outlives the regions, the contents obtained by folding
the program's segments over the launch memory: the first region's write-backs, the host operations that form the bias
row, the second region's write-backs, and the host operations that form the bias's divergence and add the two
divergences. Here the two RESULT buffers — the layer's output and the summed divergence — are read out of that final
memory beside the seven arguments, which end as launched.
-/

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the output array and the divergence end at
    the last segment boundary's contents, and the arguments end as launched. -/
theorem run : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_v19) = W4 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       h c _ (mem_uc main_v19 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Named

end
-- ==== Proof.Cases.lean ====
import proofs.«148630_j35313221108256_2_alg».proof.Proof.Gen.KernelIdeal.Frame
import Idealize.ShloMosaic.Lib.Pipeline.Value
import Idealize.ShloMosaic.Lib.Tactic

/-!
# What each control case of the two kernel bodies leaves in its outputs

The sampling body has two cases: at the first grid point it first clears the one-entry accumulator; at every other
point it finds the accumulator as the point before left it. In both it stores the tile's sampled weights and then the
accumulator plus `-½` times the tile's sum. The product body has three cases along its innermost grid axis: the first
step clears the output tile and adds the step's product, a middle step adds its product to what it finds, and the last
step also adds the bias row. Each case's stores are read back here as the body's arithmetic applied to the blocks it
loaded (and, where it reads an output before covering it, to what that output held).
-/

set_option maxRecDepth 16384

noncomputable section

namespace Cert.KernelIdeal.Cases

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]

theorem hz : (![0, 0] : Fin 2 → Nat) = fun _ => 0 := funext fun a => by fin_cases a <;> rfl

/-! ## The sampling body -/

/-- At the first point the stored tile is the sampled weights of the three loaded blocks. -/
theorem w_first (c : Dev nD) (i : grid0.Coords) (a2 : Memref sig .tc .vmem S1024x512 .f32) (h2 : a2.IsWhole)
    (a3 : Memref sig .tc .vmem S1024x512 .f32) (h3 : a3.IsWhole) (a4 : Memref sig .tc .vmem S1024x512 .f32) (h4 : a4.IsWhole)
    (a5 : Memref sig .tc .vmem S1024x512 .bf16) (h5 : a5.IsWhole) (a6 : Memref sig .tc .vmem S1x1 .f32) (h6 : a6.IsWhole)
    (hc : cond0_0 i) (x0 x1 x2 : Vec F S1024x512 .f32) :
    out0_A_3 c i a2 h2 a3 h3 a4 h4 a5 h5 a6 h6 hc x0 x1 x2 = k0_pay3 x0 x1 x2 := by
  unfold out0_A_3
  rw [View.read_writes_eq_canon _ _ _ (cover0_A_3 c i a2 h2 a3 h3 a4 h4 a5 h5 a6 h6 hc x0 x1 x2)]
  unfold kernelRun0_A
  dsimp only
  rw [View.canon_unit_zero hz]
  simp only [View.readAt_eq_ld, h2.read_unread, h3.read_unread, h4.read_unread, View.ld_unit_zero (S := S1024x512) hz]

/-- At every later point too. -/
theorem w_later (c : Dev nD) (i : grid0.Coords) (a2 : Memref sig .tc .vmem S1024x512 .f32) (h2 : a2.IsWhole)
    (a3 : Memref sig .tc .vmem S1024x512 .f32) (h3 : a3.IsWhole) (a4 : Memref sig .tc .vmem S1024x512 .f32) (h4 : a4.IsWhole)
    (a5 : Memref sig .tc .vmem S1024x512 .bf16) (h5 : a5.IsWhole) (a6 : Memref sig .tc .vmem S1x1 .f32) (h6 : a6.IsWhole)
    (hc : ¬cond0_0 i) (x0 x1 x2 : Vec F S1024x512 .f32) (xo : Vec F S1x1 .f32) :
    out0_B_3 c i a2 h2 a3 h3 a4 h4 a5 h5 a6 h6 hc x0 x1 x2 xo = k0_pay3 x0 x1 x2 := by
  unfold out0_B_3
  rw [View.read_writes_eq_canon _ _ _ (cover0_B_3 c i a2 h2 a3 h3 a4 h4 a5 h5 a6 h6 hc x0 x1 x2 xo)]
  unfold kernelRun0_B
  dsimp only
  rw [View.canon_unit_zero hz]
  simp only [View.readAt_eq_ld, h2.read_unread, h3.read_unread, h4.read_unread, View.ld_unit_zero (S := S1024x512) hz]

/-- At the first point the accumulator ends at the cleared entry plus the tile's contribution. -/
theorem acc_first (c : Dev nD) (i : grid0.Coords) (a2 : Memref sig .tc .vmem S1024x512 .f32) (h2 : a2.IsWhole)
    (a3 : Memref sig .tc .vmem S1024x512 .f32) (h3 : a3.IsWhole) (a4 : Memref sig .tc .vmem S1024x512 .f32) (h4 : a4.IsWhole)
    (a5 : Memref sig .tc .vmem S1024x512 .bf16) (h5 : a5.IsWhole) (a6 : Memref sig .tc .vmem S1x1 .f32) (h6 : a6.IsWhole)
    (hc : cond0_0 i) (x0 x1 x2 : Vec F S1024x512 .f32) :
    out0_A_4 c i a2 h2 a3 h3 a4 h4 a5 h5 a6 h6 hc x0 x1 x2 = k0_pay4 x0 x1 (k0_pay1 (F := F)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S1024x512) hz]

/-- At a later point the accumulator ends at what it held plus the tile's contribution. -/
theorem acc_later (c : Dev nD) (i : grid0.Coords) (a2 : Memref sig .tc .vmem S1024x512 .f32) (h2 : a2.IsWhole)
    (a3 : Memref sig .tc .vmem S1024x512 .f32) (h3 : a3.IsWhole) (a4 : Memref sig .tc .vmem S1024x512 .f32) (h4 : a4.IsWhole)
    (a5 : Memref sig .tc .vmem S1024x512 .bf16) (h5 : a5.IsWhole) (a6 : Memref sig .tc .vmem S1x1 .f32) (h6 : a6.IsWhole)
    (hc : ¬cond0_0 i) (x0 x1 x2 : Vec F S1024x512 .f32) (xo : Vec F S1x1 .f32) :
    out0_B_4 c i a2 h2 a3 h3 a4 h4 a5 h5 a6 h6 hc x0 x1 x2 xo = k0_pay4 x0 x1 xo := by
  unfold out0_B_4
  rw [View.read_writes_eq_canon _ _ _ (cover0_B_4 c i a2 h2 a3 h3 a4 h4 a5 h5 a6 h6 hc x0 x1 x2 xo)]
  unfold kernelRun0_B
  dsimp only
  rw [View.canon_unit_zero hz]
  simp only [View.readAt_eq_ld, h2.read_unread, h3.read_unread, h6.read_unread, View.ld_unit_zero (S := S1024x512) hz, View.ld_unit_zero (S := S1x1) hz]

/-! ## The product body -/

/-- The first step of a run: the cleared tile plus the step's product. -/
theorem mm_first (c : Dev nD) (i : grid1.Coords) (a3 : Memref sig .tc .vmem S2048x256 .f32) (h3 : a3.IsWhole)
    (a4 : Memref sig .tc .vmem S1024x256 .bf16) (h4 : a4.IsWhole) (a5 : Memref sig .tc .vmem S1x1024 .f32) (h5 : a5.IsWhole)
    (a6 : Memref sig .tc .vmem S2048x1024 .f32) (h6 : a6.IsWhole)
    (hc0 : cond1_0 i) (hc1 : ¬cond1_1 i) (x0 : Vec F S2048x256 .f32) (x1 : Vec F S1024x256 .bf16) (x2 : Vec F S1x1024 .f32) :
    out1_A_3 c i a3 h3 a4 h4 a5 h5 a6 h6 hc0 hc1 x0 x1 x2 = k1_pay2 x0 x1 (k1_pay1 (F := F)) := by
  unfold out1_A_3
  rw [View.read_writes_eq_canon _ _ _ (cover1_A_3 c i a3 h3 a4 h4 a5 h5 a6 h6 hc0 hc1 x0 x1 x2)]
  unfold kernelRun1_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x256) hz, View.ld_unit_zero (S := S1024x256) hz]

/-- A middle step: what the tile held plus the step's product. -/
theorem mm_middle (c : Dev nD) (i : grid1.Coords) (a3 : Memref sig .tc .vmem S2048x256 .f32) (h3 : a3.IsWhole)
    (a4 : Memref sig .tc .vmem S1024x256 .bf16) (h4 : a4.IsWhole) (a5 : Memref sig .tc .vmem S1x1024 .f32) (h5 : a5.IsWhole)
    (a6 : Memref sig .tc .vmem S2048x1024 .f32) (h6 : a6.IsWhole)
    (hc0 : ¬cond1_0 i) (hc1 : ¬cond1_1 i) (x0 : Vec F S2048x256 .f32) (x1 : Vec F S1024x256 .bf16) (x2 : Vec F S1x1024 .f32)
    (xo : Vec F S2048x1024 .f32) :
    out1_B_3 c i a3 h3 a4 h4 a5 h5 a6 h6 hc0 hc1 x0 x1 x2 xo = k1_pay2 x0 x1 xo := by
  unfold out1_B_3
  rw [View.read_writes_eq_canon _ _ _ (cover1_B_3 c i a3 h3 a4 h4 a5 h5 a6 h6 hc0 hc1 x0 x1 x2 xo)]
  unfold kernelRun1_B
  dsimp only
  rw [View.canon_unit_zero hz]
  simp only [View.readAt_eq_ld, h3.read_unread, h4.read_unread, h6.read_unread, View.ld_unit_zero (S := S2048x256) hz, View.ld_unit_zero (S := S1024x256) hz, View.ld_unit_zero (S := S2048x1024) hz]

/-- The last step: what the tile held plus the step's product, plus the bias row. -/
theorem mm_last (c : Dev nD) (i : grid1.Coords) (a3 : Memref sig .tc .vmem S2048x256 .f32) (h3 : a3.IsWhole)
    (a4 : Memref sig .tc .vmem S1024x256 .bf16) (h4 : a4.IsWhole) (a5 : Memref sig .tc .vmem S1x1024 .f32) (h5 : a5.IsWhole)
    (a6 : Memref sig .tc .vmem S2048x1024 .f32) (h6 : a6.IsWhole)
    (hc0 : ¬cond1_0 i) (hc1 : cond1_1 i) (x0 : Vec F S2048x256 .f32) (x1 : Vec F S1024x256 .bf16) (x2 : Vec F S1x1024 .f32)
    (xo : Vec F S2048x1024 .f32) :
    out1_C_3 c i a3 h3 a4 h4 a5 h5 a6 h6 hc0 hc1 x0 x1 x2 xo = k1_pay3 (k1_pay2 x0 x1 xo) x2 := by
  unfold out1_C_3
  rw [View.read_writes_eq_canon _ _ _ (cover1_C_3 c i a3 h3 a4 h4 a5 h5 a6 h6 hc0 hc1 x0 x1 x2 xo)]
  unfold kernelRun1_C
  dsimp only
  sl_unfold_words
  rw [View.canon_cons_unit_zero (S := S2048x1024) hz, View.readCov_unit_zero (S := S2048x1024) _ hz]
  simp only [View.readAt_eq_ld, h3.read_unread, h4.read_unread, h5.read_unread, h6.read_unread, View.ld_unit_zero (S := S2048x256) hz, View.ld_unit_zero (S := S1024x256) hz, View.ld_unit_zero (S := S2048x1024) hz, View.ld_unit_zero (S := S1x1024) hz]

end Cert.KernelIdeal.Cases

end
-- ==== Proof.Spec.lean ====
import Idealize.ShloMosaic.Lib.ValueIdx
import Idealize.ShloMosaic.PureOps.Ideal

/-!
# A linear layer whose weights are sampled, and the divergence of the weight distribution from a standard normal

Every weight has a mean `μ` and a log-deviation `σ`; a sample is `w = μ + e^σ · ε` for a given noise `ε`, and the
bias is sampled the same way. The layer sends a batch `x` (8192 rows of 4096 features) to `x · wᵀ + b`: entry
`(b, o)` is the sum over the 4096 features `i` of `x (b, i) · w (o, i)`, plus the sampled bias at `o`.

Beside it the layer reports the divergence of its weight distribution from a standard normal,
`-½ · Σ (1 + 2σ − μ² − e^{2σ})`, over the weights and again over the bias entries, the two added.

All numbers are extended reals. The same quantities are also written here the way a tiled evaluation forms them —
the variance as `e^σ · e^σ`, the weight sum tile by tile (32 tiles of 1024 × 512 entries, each tile's sum multiplied
by `-½` before the tiles are added), and the feature sum in 16 blocks of 256 — so that the two spellings can be
compared.
-/

noncomputable section

namespace Cert.SampledLinear

open Idealize.ShloMosaic Idealize.ShloMosaic.ValueIdx
open scoped BigOperators

/-- The batch: 8192 rows of 4096 features. -/
abbrev SX : Shape := ⟨2, ![8192, 4096]⟩
/-- A weight-shaped array: 4096 outputs by 4096 features. -/
abbrev SW : Shape := ⟨2, ![4096, 4096]⟩
/-- A bias-shaped vector. -/
abbrev SV : Shape := ⟨1, ![4096]⟩
/-- A single number. -/
abbrev SS : Shape := ⟨0, ![]⟩

/-- The constants the two formulas use, as the words that spell them: `0`, `1`, `2` and `-½`. -/
abbrev zero : EReal := Ideal.ofBits .f32 0x00000000#32
abbrev one : EReal := Ideal.ofBits .f32 0x3F800000#32
abbrev two : EReal := Ideal.ofBits .f32 0x40000000#32
abbrev negHalf : EReal := Ideal.ofBits .f32 0xBF000000#32

/-- The sampled weight at output `o`, feature `i`: the mean plus `e^σ` times the noise. -/
def weight (mu sig eps : SW.Idx → EReal) (o i : Fin 4096) : EReal :=
  mu (ix2 o i) + Ideal.exp (sig (ix2 o i)) * eps (ix2 o i)

/-- The sampled bias at output `o`. -/
def biasAt (bmu bsig beps : SV.Idx → EReal) (o : Fin 4096) : EReal :=
  bmu (ix1 o) + Ideal.exp (bsig (ix1 o)) * beps (ix1 o)

/-- The layer's output at batch row `b`, output `o`. -/
def outAt (x : SX.Idx → EReal) (mu sig eps : SW.Idx → EReal) (bmu bsig beps : SV.Idx → EReal) (b : Fin 8192) (o : Fin 4096) :
    EReal :=
  (∑ i : Fin 4096, x (ix2 b i) * weight mu sig eps o i) + biasAt bmu bsig beps o

/-- The layer's output as an array. -/
def out (x : SX.Idx → EReal) (mu sig eps : SW.Idx → EReal) (bmu bsig beps : SV.Idx → EReal) : SX.Idx → EReal :=
  fun j => outAt x mu sig eps bmu bsig beps (j 0) (j 1)

/-- One entry's term of the divergence, the variance written `e^{2σ}`. -/
def klTerm (mu sig : EReal) : EReal := ((one + two * sig) - mu * mu) - Ideal.exp (two * sig)

/-- The same term with the variance written `e^σ · e^σ`. -/
def klTermSq (mu sig : EReal) : EReal := ((one + two * sig) - mu * mu) - Ideal.exp sig * Ideal.exp sig

/-- The divergence of the weights: `-½` times the sum, from zero, of every entry's term. -/
def klW (mu sig : SW.Idx → EReal) : EReal := negHalf * (zero + ∑ i : SW.Idx, klTerm (mu i) (sig i))

/-- The divergence of the bias entries. -/
def klB (bmu bsig : SV.Idx → EReal) : EReal := negHalf * (zero + ∑ i : SV.Idx, klTerm (bmu i) (bsig i))

/-- The reported divergence: the weights' plus the bias's, as a rank-zero array. -/
def kl (mu sig : SW.Idx → EReal) (bmu bsig : SV.Idx → EReal) : SS.Idx → EReal := fun _ => klW mu sig + klB bmu bsig

/-- Entry `(r, c)` of tile `t`: the tiles are 1024 × 512, eight to a row of tiles, numbered row by row. -/
def tileIx (t : Fin 32) (r : Fin 1024) (c : Fin 512) : SW.Idx :=
  ix2 (⟨1024 * (t.val / 8) + r.val, by have := t.isLt; have := r.isLt; omega⟩ : Fin 4096)
    (⟨512 * (t.val % 8) + c.val, by have := c.isLt; omega⟩ : Fin 4096)

/-- One tile's sum of terms: each row summed, then the row sums added. -/
def tileSum (mu sig : SW.Idx → EReal) (t : Fin 32) : EReal :=
  ∑ r : Fin 1024, ∑ c : Fin 512, klTermSq (mu (tileIx t r c)) (sig (tileIx t r c))

/-- The weights' divergence formed tile by tile: each tile's sum times `-½`, the 32 products added. -/
def klWTiles (mu sig : SW.Idx → EReal) : EReal := ∑ t : Fin 32, negHalf * tileSum mu sig t

/-- Feature `j` of block `k`: the 4096 features are cut into 16 blocks of 256. -/
def featIx (k : Fin 16) (j : Fin 256) : Fin 4096 := ⟨256 * k.val + j.val, by have := k.isLt; have := j.isLt; omega⟩

/-- One block's part of the feature sum at `(b, o)`, for any weight-shaped array `w`. -/
def blockDot (x : SX.Idx → EReal) (w : Fin 4096 → Fin 4096 → EReal) (b : Fin 8192) (o : Fin 4096) (k : Fin 16) : EReal :=
  ∑ j : Fin 256, x (ix2 b (featIx k j)) * w o (featIx k j)

end Cert.SampledLinear

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.LibDotRows.lean ====
import Idealize.ShloMosaic.Lib.ValueIdx
import Idealize.ShloMosaic.PureOps.Ideal.Laws

/-!
# A product of rows with rows, read at an index

For dimension numbers that contract the second axis of BOTH operands and have no batch axis, the product
`[M, K] × [N, K] → [M, N]` (an einsum `mk,nk->mn`: the right operand is used transposed without being
transposed) at the index `(p, q)` is the plain sum `∑ k < K, l (p, k) · r (q, k)` over the extended reals —
for the matrix unit's product into a zero accumulator and for the host's `dot_general` alike, whatever
`M`, `K`, `N` are. Entry `(p, q)` depends on row `p` of the left operand and row `q` of the right one only,
so a program that cuts the left operand into row tiles computes the same entries as one that does not.
-/

noncomputable section

namespace Cert.LibDotRows

open Idealize.ShloMosaic Idealize.ShloMosaic.ValueIdx
open scoped BigOperators

/-- The dimension numbers of a rows-with-rows product: axis 1 of the left operand against axis 1 of the right
    operand, axis 0 of each kept (the left one first), no batch axis. -/
structure RowsRows {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Spelt

variable {M K N : Nat}
  (wf : DotDims.WF (⟨2, ![M, K]⟩ : Shape) (⟨2, ![N, K]⟩ : Shape) (⟨2, ![M, N]⟩ : Shape) [1] [1] [0] [0] [] [])

/-- The record with its six lists written out. -/
abbrev spelt : DotDims ⟨2, ![M, K]⟩ ⟨2, ![N, K]⟩ ⟨2, ![M, N]⟩ := ⟨[1], [1], [0], [0], [], [], wf⟩

/-- The left operand is read in the result's row. -/
theorem spelt_lhs_row (j : (⟨2, ![M, N]⟩ : Shape).Idx) (k : (spelt wf).contr.Idx) :
    ((spelt wf).lhsIdx j k 0).val = (j 0).val := by
  unfold DotDims.lhsIdx
  rw [dif_neg (show ¬ (0 : Fin 2) ∈ (spelt wf).lhsBatch from List.not_mem_nil),
    dif_pos (show (0 : Fin 2) ∈ (spelt wf).lhsNonContracting from List.mem_singleton.mpr rfl)]
  rfl

/-- The right operand is read in the ROW numbered by the result's column. -/
theorem spelt_rhs_row (j : (⟨2, ![M, N]⟩ : Shape).Idx) (k : (spelt wf).contr.Idx) :
    ((spelt wf).rhsIdx j k 0).val = (j 1).val := by
  unfold DotDims.rhsIdx
  rw [dif_neg (show ¬ (0 : Fin 2) ∈ (spelt wf).rhsBatch from List.not_mem_nil),
    dif_pos (show (0 : Fin 2) ∈ (spelt wf).rhsNonContracting from List.mem_singleton.mpr rfl)]
  rfl

/-- The contraction's sum, re-indexed by the one contracted coordinate. -/
theorem spelt_sum (l : (⟨2, ![M, K]⟩ : Shape).Idx → EReal) (r : (⟨2, ![N, K]⟩ : Shape).Idx → EReal) (p : Fin M) (q : Fin N) :
    ∑ k : (spelt wf).contr.Idx, l ((spelt wf).lhsIdx (ix2 p q) k) * r ((spelt wf).rhsIdx (ix2 p q) k)
      = ∑ k : Fin K, l (ix2 p k) * r (ix2 q k) := by
  rw [← Equiv.sum_comp (contrEquiv1 (spelt wf) K rfl rfl).symm]
  refine Finset.sum_congr rfl fun k _ => ?_
  have hk := contrEquiv1_symm_val (spelt wf) K rfl rfl k
  have el : (spelt wf).lhsIdx (ix2 p q) ((contrEquiv1 (spelt wf) K rfl rfl).symm k) = ix2 p k :=
    funext fun a => Fin.ext (by
      match a with
      | ⟨0, _⟩ => exact spelt_lhs_row wf _ _
      | ⟨1, _⟩ => exact ((spelt wf).lhsIdx_val_of_single rfl _ _).trans hk)
  have er : (spelt wf).rhsIdx (ix2 p q) ((contrEquiv1 (spelt wf) K rfl rfl).symm k) = ix2 q k :=
    funext fun a => Fin.ext (by
      match a with
      | ⟨0, _⟩ => exact spelt_rhs_row wf _ _
      | ⟨1, _⟩ => exact ((spelt wf).rhsIdx_val_of_single rfl _ _).trans hk)
  rw [el, er]

end Spelt

/-- The sum over the contraction index of a rows-with-rows product is the sum over `k < K` of the left operand at
    `(p, k)` times the right operand at `(q, k)`. -/
theorem sum_contr {M K N : Nat} (d : DotDims ⟨2, ![M, K]⟩ ⟨2, ![N, K]⟩ ⟨2, ![M, N]⟩) (h : RowsRows d)
    (l : (⟨2, ![M, K]⟩ : Shape).Idx → EReal) (r : (⟨2, ![N, K]⟩ : Shape).Idx → EReal) (p : Fin M) (q : Fin N) :
    ∑ k : d.contr.Idx, l (d.lhsIdx (ix2 p q) k) * r (d.rhsIdx (ix2 p q) k) = ∑ k : Fin K, l (ix2 p k) * r (ix2 q k) := by
  obtain ⟨lc, rc, ln, rn, lb, rb, wf⟩ := d
  obtain ⟨h1, h2, h3, h4, h5, h6⟩ := h
  dsimp only at h1 h2 h3 h4 h5 h6
  subst h1 h2 h3 h4 h5 h6
  exact spelt_sum wf l r p q

/-- The matrix unit's product into a zero accumulator, at an index: the plain sum over the shared second axis. -/
theorem matmul_zero_apply {M K N : Nat} {φ₁ φ₂ : FTy} (d : DotDims ⟨2, ![M, K]⟩ ⟨2, ![N, K]⟩ ⟨2, ![M, N]⟩) (h : RowsRows d)
    (prec : Option ContractPrecision) (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) :=
  (Ideal.matmul_constant_zero_apply d prec lhs rhs (ix2 p q)).trans (sum_contr d h lhs rhs p q)

/-- The host's `dot_general` at an index: the same sum, whatever the schedule key. -/
theorem dotGeneral_apply {M K N : Nat} {φ₁ φ₂ : FTy} (d : DotDims ⟨2, ![M, K]⟩ ⟨2, ![N, K]⟩ ⟨2, ![M, N]⟩) (h : RowsRows d)
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) :=
  (Ideal.dotGeneral_apply d prec sched lhs rhs (ix2 p q)).trans (sum_contr d h lhs rhs p q)

end Cert.LibDotRows

end
-- ==== Proof.Payloads.lean ====
import proofs.«148630_j35313221108256_2_alg».proof.Proof.Gen.KernelIdeal.Skeleton
import proofs.«148630_j35313221108256_2_alg».proof.Proof.Spec
import proofs.«148630_j35313221108256_2_alg».proof.Proof.LibTileLayout
import proofs.«148630_j35313221108256_2_alg».proof.Proof.LibDotRows

/-!
# The two kernel bodies' arithmetic, read at an index over the extended reals

Each value a kernel body stores is one pure term over the values it has read. Here each of those terms is read at
an index, with a float an extended real, every operation its textbook one and a change of format the identity:

* the sampling body stores `μ + e^σ · ε` entry by entry, starts its running divergence at `0`, and adds to it `-½`
  times the tile's sum of `1 + 2σ − μ² − e^σ · e^σ` (rows summed first, then the row sums);
* the product body starts its accumulator at `0`, adds to entry `(p, q)` the sum over one block of 256 features of
  `x (p, k) · w (q, k)`, and at the end adds the bias row to every row.
-/

noncomputable section

namespace Cert.KernelIdeal.Payloads

open Cert.KernelIdeal Cert.KernelIdeal.Gen Cert.SampledLinear Idealize.ShloMosaic Idealize.ShloMosaic.ValueIdx
open scoped BigOperators

/-! ## The sampling body -/

/-- The stored sample: the mean plus `e^σ` times the noise; the narrowing to the stored format changes nothing. -/
theorem pay3_apply (x0 x1 x2 : Vec Ideal S1024x512 .f32) (j : S1024x512.Idx) :
    k0_pay3 x0 x1 x2 j = x0 j + Ideal.exp (x1 j) * x2 j := rfl

/-- The running divergence starts at the zero word. -/
theorem pay1_apply (j : S1x1.Idx) : k0_pay1 (F := Ideal) j = Cert.SampledLinear.zero := rfl

/-- The tile's contribution to the running divergence: `-½` times the sum over the tile's 1024 rows of each row's sum
    over its 512 columns of the entry's term `1 + 2σ − μ² − e^σ · e^σ`. Entry by entry the body forms the term; it sums
    each row from zero, stands the row sums up as a column, sums the column from zero into one number, and places
    that number in the one-entry block; neither cast changes a value. -/
theorem pay4_apply (x0 x1 : Vec Ideal S1024x512 .f32) (acc : Vec Ideal S1x1 .f32) (j : S1x1.Idx) :
    k0_pay4 x0 x1 acc j
      = acc j + negHalf * ∑ r : Fin 1024, ∑ c : Fin 512, klTermSq (x0 (ix2 r c)) (x1 (ix2 r c)) := by
  obtain ⟨a, b, rfl⟩ : ∃ (a : Fin 1) (b : Fin 1), j = ix2 a b := ⟨j 0, j 1, eq_ix2 j⟩
  -- the entries' terms, the row sums, the row sums as a column, and the column's sum
  let T : FVec Ideal S1024x512 .f32 := fun i => klTermSq (x0 i) (x1 i)
  let R : FVec Ideal S1024 .f32 :=
    multiReduction .add [1] S1024 T 0x00000000#32 reduces_S1024x512_S1024 (.inl rfl) rfl
  let C : FVec Ideal S1024x1 .f32 := shapeCast S1024x1 R shapeCasts_S1024_S1024x1
  let Z : FVec Ideal S1 .f32 := multiReduction .add [0] S1 C 0x00000000#32 reduces_S1024x1_S1 (.inl rfl) rfl
  have hacc : shapeCast S1x1 acc shapeCasts_S1x1_S1x1 = acc := shapeCast_self acc _
  show shapeCast S1x1 acc shapeCasts_S1x1_S1x1 (ix2 a b) + negHalf * shapeCast S1x1 Z shapeCasts_S1_S1x1 (ix2 a b) = _
  rw [hacc]
  refine congrArg (fun z => acc (ix2 a b) + negHalf * z) ?_
  refine (Cert.TileLayout.shapeCast_a_a1_apply Z shapeCasts_S1_S1x1 a b).trans ?_
  refine (Cert.TileLayout.sum_axis0_apply C 0x00000000#32 reduces_S1024x1_S1 (.inl rfl) rfl a).trans ?_
  refine Finset.sum_congr rfl fun r _ => ?_
  refine (Cert.TileLayout.shapeCast_a_a1_apply R shapeCasts_S1024_S1024x1 r a).trans ?_
  exact Cert.TileLayout.sum_axis1_apply T 0x00000000#32 reduces_S1024x512_S1024 (.inl rfl) rfl r

/-! ## The product body -/

/-- The accumulator starts at the zero word. -/
theorem mm1_apply (j : S2048x1024.Idx) : k1_pay1 (F := Ideal) j = Cert.SampledLinear.zero := rfl

/-- One block's contribution: entry `(p, q)` of the accumulator gains the sum over the block's 256 features of the
    batch row `p` against the weight row `q`. The two format changes and the two casts to the same shape change
    nothing, and the matrix unit's product is taken into a zero accumulator. -/
theorem mm2_apply (x0 : Vec Ideal S2048x256 .f32) (x1 : Vec Ideal S1024x256 .bf16) (acc : Vec Ideal S2048x1024 .f32)
    (p : Fin 2048) (q : Fin 1024) :
    k1_pay2 x0 x1 acc (ix2 p q) = acc (ix2 p q) + ∑ k : Fin 256, x0 (ix2 p k) * x1 (ix2 q k) := by
  have hacc : shapeCast S2048x1024 acc shapeCasts_S2048x1024_S2048x1024 = acc := shapeCast_self acc _
  have hw : shapeCast S1024x256 x1 shapeCasts_S1024x256_S1024x256 = x1 := shapeCast_self x1 _
  have hdot := Cert.LibDotRows.matmul_zero_apply dot_S2048x256_S1024x256_S2048x1024_1_1_0_0_n_n
    ⟨rfl, rfl, rfl, rfl, rfl, rfl⟩ none (φ₁ := .bf16) (φ₂ := .bf16) (fun i => x0 i) x1 p q
  show shapeCast S2048x1024 acc shapeCasts_S2048x1024_S2048x1024 (ix2 p q)
      + FloatOps.matmul (F := Ideal) dot_S2048x256_S1024x256_S2048x1024_1_1_0_0_n_n none (φ₁ := .bf16) (φ₂ := .bf16) (fun i => x0 i)
          (shapeCast S1024x256 x1 shapeCasts_S1024x256_S1024x256) (constant (F := Ideal) S2048x1024 .f32 0x00000000#32) (ix2 p q) = _
  rw [hacc, hw]
  exact congrArg (acc (ix2 p q) + ·) hdot

/-- The last step: every row gains the bias row. The two casts to the same shape change nothing, and a row spread
    over all the rows reads, at `(p, q)`, the row at `q`. -/
theorem mm3_apply (v : Vec Ideal S2048x1024 .f32) (r : Vec Ideal S1x1024 .f32) (p : Fin 2048) (q : Fin 1024) :
    k1_pay3 v r (ix2 p q) = v (ix2 p q) + r (ix2 (0 : Fin 1) q) := by
  have hv : shapeCast S2048x1024 v shapeCasts_S2048x1024_S2048x1024 = v := shapeCast_self v _
  have hr : shapeCast S1x1024 r shapeCasts_S1x1024_S1x1024 = r := shapeCast_self r _
  show shapeCast S2048x1024 v shapeCasts_S2048x1024_S2048x1024 (ix2 p q)
      + broadcastTo S2048x1024 (shapeCast S1x1024 r shapeCasts_S1x1024_S1x1024) broadcasts_S1x1024_S2048x1024 (ix2 p q) = _
  rw [hv, hr]
  exact congrArg (v (ix2 p q) + ·) (broadcastTo_1b_ab_apply r broadcasts_S1x1024_S2048x1024 p q)

end Cert.KernelIdeal.Payloads

end
-- ==== Proof.R0.lean ====
import proofs.«148630_j35313221108256_2_alg».proof.Proof.Cases
import proofs.«148630_j35313221108256_2_alg».proof.Proof.Payloads
import proofs.«148630_j35313221108256_2_alg».proof.Proof.Spec
import Idealize.ShloMosaic.Lib.Pipeline.Value

/-!
# The first region read as values: the sampled weights, and the divergence accumulated tile by tile

The first pipelined region walks the 4 × 8 grid of 1024 × 512 tiles of the three weight-shaped arguments. At every point
it writes the tile's sampled weights `μ + e^σ · ε` to the same tile of a weight-shaped output, so after the region that
output holds the sampled weights everywhere: the tiles cover it, and each point's write-back is the tile of ONE function
of the arrays the region finds. Beside it a one-entry block is cleared at the first point and receives, at every point,
`-½` times the tile's sum of `1 + 2σ − μ² − e^σ·e^σ`; it is written back once, after the last point, holding zero plus
the 32 tiles' contributions in grid order — by induction on the point, not by enumerating the grid.
-/

set_option maxRecDepth 16384

noncomputable section

namespace Cert.KernelIdeal.Sampling

open Cert.KernelIdeal Cert.KernelIdeal.Gen Cert.SampledLinear
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The sampled weights of three weight-shaped arrays, entry by entry. -/
def sampled (a1 a2 a5 : S4096x4096.Idx → EReal) : S4096x4096.Idx → EReal := fun i => a1 i + Ideal.exp (a2 i) * a5 i

/-- Point `t` of the 4 × 8 grid is tile `(t / 8, t % 8)` for the three inputs and the weight output; the accumulator's
    one block never moves. -/
theorem tile_of_point : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = t.val % 8
    ∧ win0_3.index t (0 : Fin 2) = t.val / 8 ∧ win0_3.index t (1 : Fin 2) = t.val % 8
    ∧ win0_4.index t (0 : Fin 2) = 0 ∧ win0_4.index t (1 : Fin 2) = 0 :=
  (by decide +kernel : ∀ t : Fin grid0.N, _)

/-- Every tile is some point's. -/
theorem point_of_tile : ∀ (q0 : Fin 4) (q1 : Fin 8), ∃ t : Fin cfg0.N, win0_3.index t = ![q0.val, q1.val] :=
  (by decide +kernel : ∀ (q0 : Fin 4) (q1 : Fin 8), ∃ t : Fin grid0.N, win0_3.index t = ![q0.val, q1.val])

/-! ## The blocks the body loads are the tiles of the arrays -/

theorem read_mu (c : Dev nD) (t : Fin cfg0.N) (h32 : t.val < 32) (r : Fin 1024) (cc : Fin 512) :
    iblk0 V c 0 t (ix2 r cc) = V c main_arg1 (tileIx ⟨t.val, h32⟩ r cc) := by
  obtain ⟨e0, e1, -⟩ := tile_of_point t
  unfold iblk0
  rw [View.read_apply]
  show V c main_arg1 _ = V c main_arg1 _
  congr 1
  funext a
  apply Fin.ext
  match a with
  | ⟨0, _⟩ => show win0_0.index t 0 * 1024 + 1 * r.val = 1024 * (t.val / 8) + r.val; rw [e0]; omega
  | ⟨1, _⟩ => show win0_0.index t 1 * 512 + 1 * cc.val = 512 * (t.val % 8) + cc.val; rw [e1]; omega

theorem read_sig (c : Dev nD) (t : Fin cfg0.N) (h32 : t.val < 32) (r : Fin 1024) (cc : Fin 512) :
    iblk0 V c 1 t (ix2 r cc) = V c main_arg2 (tileIx ⟨t.val, h32⟩ r cc) := by
  obtain ⟨-, -, e0, e1, -⟩ := tile_of_point t
  unfold iblk0
  rw [View.read_apply]
  show V c main_arg2 _ = V c main_arg2 _
  congr 1
  funext a
  apply Fin.ext
  match a with
  | ⟨0, _⟩ => show win0_1.index t 0 * 1024 + 1 * r.val = 1024 * (t.val / 8) + r.val; rw [e0]; omega
  | ⟨1, _⟩ => show win0_1.index t 1 * 512 + 1 * cc.val = 512 * (t.val % 8) + cc.val; rw [e1]; omega

theorem read_eps (c : Dev nD) (t : Fin cfg0.N) (h32 : t.val < 32) (r : Fin 1024) (cc : Fin 512) :
    iblk0 V c 2 t (ix2 r cc) = V c main_arg5 (tileIx ⟨t.val, h32⟩ r cc) := by
  obtain ⟨-, -, -, -, e0, e1, -⟩ := tile_of_point t
  unfold iblk0
  rw [View.read_apply]
  show V c main_arg5 _ = V c main_arg5 _
  congr 1
  funext a
  apply Fin.ext
  match a with
  | ⟨0, _⟩ => show win0_2.index t 0 * 1024 + 1 * r.val = 1024 * (t.val / 8) + r.val; rw [e0]; omega
  | ⟨1, _⟩ => show win0_2.index t 1 * 512 + 1 * cc.val = 512 * (t.val % 8) + cc.val; rw [e1]; omega

/-- Entry `(r, cc)` of the output tile at point `t` sits in the weight array at the tile's entry. -/
theorem out_tile_entry (t : Fin cfg0.N) (h32 : t.val < 32) (r : Fin 1024) (cc : Fin 512) :
    ((cfg0.win 3).blk t).view.emb (ix2 r cc) = tileIx ⟨t.val, h32⟩ r cc := by
  obtain ⟨-, -, -, -, -, -, e0, e1, -⟩ := tile_of_point t
  funext a
  apply Fin.ext
  match a with
  | ⟨0, _⟩ => show win0_3.index t 0 * 1024 + 1 * r.val = 1024 * (t.val / 8) + r.val; rw [e0]; omega
  | ⟨1, _⟩ => show win0_3.index t 1 * 512 + 1 * cc.val = 512 * (t.val % 8) + cc.val; rw [e1]; omega

/-! ## The weight array -/

/-- After every point the weight output's staging buffer holds the sampled weights of the point's three blocks. -/
theorem w_after (c : Dev nD) (t : Fin cfg0.N) :
    (outsAt0 V c t.val t.isLt).1 = k0_pay3 (iblk0 V c 0 t) (iblk0 V c 1 t) (iblk0 V c 2 t) := by
  by_cases h0 : t.val % 32 = 0
  · rw [outsAt0_A V c t h0]
    dsimp only
    exact Cases.w_first c (grid0.coords t) (ms0_0 t) (hs0_0 t) (ms0_1 t) (hs0_1 t) (ms0_2 t) (hs0_2 t) (ms0_3 t) (hs0_3 t)
      (ms0_4 t) (hs0_4 t) ((hcond0_0 t).mpr h0) (iblk0 V c 0 t) (iblk0 V c 1 t) (iblk0 V c 2 t)
  · rw [outsAt0_B V c t h0]
    dsimp only
    exact Cases.w_later c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) (iblk0 V c 0 t) (iblk0 V c 1 t) (iblk0 V c 2 t)
      (outsAt0 V c (t.val - 1) (Nat.lt_of_le_of_lt (Nat.sub_le _ _) t.isLt)).2

/-- What point `t` writes back is tile `t` of the sampled weights of the arrays as the region finds them. -/
theorem w_flushed (c : Dev nD) (t : Fin cfg0.N) :
    (dat0 V c).flushed 3 t
      = ((cfg0.win 3).blk t).view.read (Elt Ideal) (sampled (V c main_arg1) (V c main_arg2) (V c main_arg5)) := by
  have h32 : t.val < 32 := lt_of_lt_of_eq t.isLt (show cfg0.N = 32 from N_0)
  show (cfg0.win 3).cut (grid0.coords t) ((dat0 V c).after 3 t) = _
  rw [after0_3, w_after V c t]
  funext j
  obtain ⟨r, cc, rfl⟩ : ∃ (r : Fin 1024) (cc : Fin 512), j = ix2 r cc := ⟨j 0, j 1, eq_ix2 j⟩
  show k0_pay3 (iblk0 V c 0 t) (iblk0 V c 1 t) (iblk0 V c 2 t) (ix2 r cc)
    = sampled (V c main_arg1) (V c main_arg2) (V c main_arg5) (((cfg0.win 3).blk t).view.emb (ix2 r cc))
  rw [Payloads.pay3_apply, read_mu V c t h32, read_sig V c t h32, read_eps V c t h32, out_tile_entry t h32]
  rfl

/-- An index of the weight array is in point `t`'s block iff each coordinate is in the tile's range. -/
theorem mem_tile (t : Fin cfg0.N) (i : S4096x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0_0).slice (win0_3.rect t)).set ↔ _
  rw [View.set_slice_whole, Rect.mem_set_unit]
  exact Iff.rfl

/-- The tiles cover the weight array: entry `(o, f)` lies in tile `(o / 1024, f / 512)`. -/
theorem w_cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := point_of_tile ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_tile]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The weight array after the region: the sampled weights of the arrays as the region finds them. -/
theorem final_w (c : Dev nD) :
    (dat0 V c).arrAt 3 cfg0.N = sampled (V c main_arg1) (V c main_arg2) (V c main_arg5) :=
  (dat0 V c).arrAt_eq_of_cover 3 _ (fun t _ => w_flushed V c t) w_cover

/-! ## The accumulated divergence -/

/-- Tile `s`'s contribution to the divergence: `-½` times the tile's sum of terms (nothing past the last tile). -/
def tilePart (c : Dev nD) (s : ℕ) : EReal :=
  if h : s < 32 then negHalf * tileSum (V c main_arg1) (V c main_arg2) ⟨s, h⟩ else 0

/-- What a point adds to the accumulator is its tile's contribution. -/
theorem step_eq (c : Dev nD) (t : Fin cfg0.N) (acc : Vec Ideal S1x1 .f32) (j : S1x1.Idx) :
    k0_pay4 (iblk0 V c 0 t) (iblk0 V c 1 t) acc j = acc j + tilePart V c t.val := by
  have h32 : t.val < 32 := lt_of_lt_of_eq t.isLt (show cfg0.N = 32 from N_0)
  refine (Payloads.pay4_apply (iblk0 V c 0 t) (iblk0 V c 1 t) acc j).trans ?_
  have hs : (∑ r : Fin 1024, ∑ cc : Fin 512, klTermSq (iblk0 V c 0 t (ix2 r cc)) (iblk0 V c 1 t (ix2 r cc)))
      = tileSum (V c main_arg1) (V c main_arg2) ⟨t.val, h32⟩ := by
    unfold tileSum
    refine Finset.sum_congr rfl fun r _ => Finset.sum_congr rfl fun cc _ => ?_
    rw [read_mu V c t h32 r cc, read_sig V c t h32 r cc]
  rw [hs]
  unfold tilePart
  rw [dif_pos h32]

/-- After point `n` the accumulator holds zero plus the contributions of tiles `0 … n`. -/
theorem acc_after (c : Dev nD) : ∀ (n : ℕ) (h : n < cfg0.N) (j : S1x1.Idx),
    (outsAt0 V c n h).2 j = zero + ∑ s ∈ Finset.range (n + 1), tilePart V c s
  | 0, h, j => by
    rw [outsAt0_A V c ⟨0, h⟩ rfl]
    dsimp only
    refine (congrFun (Cases.acc_first c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) (ms0_3 ⟨0, h⟩) (hs0_3 ⟨0, h⟩) (ms0_4 ⟨0, h⟩) (hs0_4 ⟨0, h⟩) ((hcond0_0 ⟨0, h⟩).mpr rfl)
      (iblk0 V c 0 ⟨0, h⟩) (iblk0 V c 1 ⟨0, h⟩) (iblk0 V c 2 ⟨0, h⟩)) j).trans ?_
    refine (step_eq V c ⟨0, h⟩ (k0_pay1 (F := Ideal)) j).trans ?_
    rw [Payloads.pay1_apply, Finset.sum_range_one]
  | n + 1, h, j => by
    have hN : cfg0.N = 32 := N_0
    have hB : ¬(⟨n + 1, h⟩ : Fin cfg0.N).val % 32 = 0 := by dsimp only; omega
    rw [outsAt0_B V c ⟨n + 1, h⟩ hB]
    dsimp only
    have hp : n + 1 - 1 < cfg0.N := Nat.lt_of_le_of_lt (Nat.sub_le _ _) h
    refine (congrFun (Cases.acc_later c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hh => hB ((hcond0_0 ⟨n + 1, h⟩).mp hh)) (iblk0 V c 0 ⟨n + 1, h⟩) (iblk0 V c 1 ⟨n + 1, h⟩) (iblk0 V c 2 ⟨n + 1, h⟩)
      (outsAt0 V c (n + 1 - 1) hp).2) j).trans ?_
    refine (step_eq V c ⟨n + 1, h⟩ (outsAt0 V c (n + 1 - 1) hp).2 j).trans ?_
    show (outsAt0 V c n (Nat.lt_of_succ_lt h)).2 j + tilePart V c (n + 1) = _
    rw [acc_after c n (Nat.lt_of_succ_lt h) j, Finset.sum_range_succ _ (n + 1), add_assoc]

/-- The 32 contributions, point by point, are the tile-by-tile divergence. -/
theorem sum_tileParts (c : Dev nD) :
    ∑ s ∈ Finset.range 32, tilePart V c s = klWTiles (V c main_arg1) (V c main_arg2) := by
  rw [Finset.sum_range]
  unfold klWTiles
  refine Finset.sum_congr rfl fun s _ => ?_
  unfold tilePart
  rw [dif_pos s.isLt]

/-- The one write-back of the accumulator, at the last point, writes the tile-by-tile divergence. -/
theorem acc_flushed (c : Dev nD) (t : Fin cfg0.N) (hf : (cfg0.win 4).flush t = true) :
    (dat0 V c).flushed 4 t = ((cfg0.win 4).blk t).view.read (Elt Ideal)
      (fun _ => zero + klWTiles (V c main_arg1) (V c main_arg2)) := by
  have hN : cfg0.N = 32 := N_0
  have h31 : t.val = 31 := by have := (flush0_4 t).mp hf; have := t.isLt; omega
  show (cfg0.win 4).cut (grid0.coords t) ((dat0 V c).after 4 t) = _
  rw [after0_4]
  funext j
  show (outsAt0 V c t.val t.isLt).2 j = zero + klWTiles (V c main_arg1) (V c main_arg2)
  rw [acc_after V c t.val t.isLt j, h31]
  exact congrArg (fun z => zero + z) (sum_tileParts V c)

/-- The accumulator's one block is its whole array. -/
theorem acc_cover (i : S1x1.Idx) :
    ∃ t : Fin cfg0.N, (cfg0.win 4).flush t = true ∧ i ∈ ((cfg0.win 4).blk t).view.set := by
  have hN : cfg0.N = 32 := N_0
  let t31 : Fin cfg0.N := ⟨31, by omega⟩
  refine ⟨t31, (flush0_4 t31).mpr rfl, ?_⟩
  obtain ⟨-, -, -, -, -, -, -, -, e0, e1⟩ := tile_of_point t31
  show i ∈ ((View.whole main_v0_1).slice (win0_4.rect t31)).set
  rw [View.set_slice_whole, Rect.mem_set_unit]
  intro a
  have h0 : (i 0 : Nat) < 1 := (i 0).isLt
  have h1 : (i 1 : Nat) < 1 := (i 1).isLt
  match a with
  | ⟨0, _⟩ => show win0_4.index t31 0 * 1 ≤ (i 0 : Nat) ∧ (i 0 : Nat) < win0_4.index t31 0 * 1 + 1; rw [e0]; omega
  | ⟨1, _⟩ => show win0_4.index t31 1 * 1 ≤ (i 1 : Nat) ∧ (i 1 : Nat) < win0_4.index t31 1 * 1 + 1; rw [e1]; omega

/-- The divergence block after the region: zero plus the tile-by-tile divergence of the arrays as the region finds them. -/
theorem final_acc (c : Dev nD) :
    (dat0 V c).arrAt 4 cfg0.N = fun _ => zero + klWTiles (V c main_arg1) (V c main_arg2) :=
  (dat0 V c).arrAt_eq_of_cover 4 _ (acc_flushed V c) acc_cover

end Cert.KernelIdeal.Sampling

end
-- ==== Proof.R1.lean ====
import proofs.«148630_j35313221108256_2_alg».proof.Proof.Gen.KernelIdeal.Frame
import proofs.«148630_j35313221108256_2_alg».proof.Proof.Cases
import proofs.«148630_j35313221108256_2_alg».proof.Proof.Payloads
import proofs.«148630_j35313221108256_2_alg».proof.Proof.Spec
import Idealize.ShloMosaic.Lib.Pipeline.Value
import Idealize.ShloMosaic.Lib.ValueIdx

/-!
# The blocked product, read as a value

The second pipelined region forms `x · wᵀ + b` tile by tile. Its grid is 4 row tiles by 4 column tiles by 16 steps,
the steps running fastest: point `t` is step `t % 16` of row tile `t / 64` and column tile `(t / 16) % 4`. A step
reads 2048 batch rows and 1024 weight rows over one block of 256 features and adds their product to a 2048 × 1024
output tile; the first step of a run of sixteen starts the tile from zero, the last also adds the bias row and the
tile is then written to its place in the output array.

So after step `j` of a run the tile holds zero plus the first `j + 1` block products (an induction on the step), the
tile written back holds zero plus all sixteen plus the bias, and, the sixteen tiles covering the array, the array ends
holding at `(b, o)` zero plus the sum over the sixteen feature blocks of `Σ x (b, f) · w (o, f)`, plus the bias at `o`.
-/

set_option maxRecDepth 16384

noncomputable section

namespace Cert.KernelIdeal.Product

open Cert.KernelIdeal Cert.KernelIdeal.Gen Cert.SampledLinear
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-! ## The blocks a point reads -/

/-- The printed index maps over the grid of 4 × 4 × 16 points, the last coordinate running fastest: point `t` is row
    tile `t / 64`, column tile `(t / 16) % 4`, step `t % 16`. -/
theorem idx_facts : ∀ t : Fin cfg1.N,
    win1_0.index t (0 : Fin 2) = t.val / 64 ∧ win1_0.index t (1 : Fin 2) = t.val % 16
    ∧ win1_1.index t (0 : Fin 2) = (t.val / 16) % 4 ∧ win1_1.index t (1 : Fin 2) = t.val % 16
    ∧ win1_2.index t (0 : Fin 2) = 0 ∧ win1_2.index t (1 : Fin 2) = (t.val / 16) % 4
    ∧ win1_3.index t (0 : Fin 2) = t.val / 64 ∧ win1_3.index t (1 : Fin 2) = (t.val / 16) % 4 :=
  (by decide +kernel : ∀ t : Fin grid1.N, _)

/-- The three blocks a point reads, as arrays of extended reals: 2048 batch rows by 256 features, 1024 weight rows by
    256 features, and the 1024 bias entries of the point's column tile. -/
abbrev batchBlock (c : Dev nD) (t : Fin cfg1.N) : Vec Ideal S2048x256 .f32 := iblk1 V c 0 t
abbrev weightBlock (c : Dev nD) (t : Fin cfg1.N) : Vec Ideal S1024x256 .bf16 := iblk1 V c 1 t
abbrev biasBlock (c : Dev nD) (t : Fin cfg1.N) : Vec Ideal S1x1024 .f32 := iblk1 V c 2 t

/-- The batch block of point `t` reads the batch at rows `2048 · (t / 64) + p`, features `256 · (t % 16) + k`. -/
theorem batchBlock_apply (c : Dev nD) (t : Fin cfg1.N) (p : Fin 2048) (k : Fin 256) (i : S8192x4096.Idx)
    (h0 : (i 0).val = 2048 * (t.val / 64) + p.val) (h1 : (i 1).val = 256 * (t.val % 16) + k.val) :
    batchBlock V c t (ix2 p k) = V c main_arg0 i := by
  obtain ⟨e0, e1, -⟩ := idx_facts t
  show V c main_arg0 (((cfg1.win 0).blk t).view.emb (ix2 p k)) = V c main_arg0 i
  refine congrArg _ (funext fun a => Fin.ext ?_)
  match a with
  | ⟨0, _⟩ => show win1_0.index t (0 : Fin 2) * 2048 + 1 * p.val = (i 0).val; rw [e0, h0]; omega
  | ⟨1, _⟩ => show win1_0.index t (1 : Fin 2) * 256 + 1 * k.val = (i 1).val; rw [e1, h1]; omega

/-- The weight block of point `t` reads the weights at outputs `1024 · ((t / 16) % 4) + n`, features `256 · (t % 16) + k`. -/
theorem weightBlock_apply (c : Dev nD) (t : Fin cfg1.N) (n : Fin 1024) (k : Fin 256) (i : S4096x4096.Idx)
    (h0 : (i 0).val = 1024 * ((t.val / 16) % 4) + n.val) (h1 : (i 1).val = 256 * (t.val % 16) + k.val) :
    weightBlock V c t (ix2 n k) = V c main_v0_0 i := by
  obtain ⟨-, -, e2, e3, -⟩ := idx_facts t
  show V c main_v0_0 (((cfg1.win 1).blk t).view.emb (ix2 n k)) = V c main_v0_0 i
  refine congrArg _ (funext fun a => Fin.ext ?_)
  match a with
  | ⟨0, _⟩ => show win1_1.index t (0 : Fin 2) * 1024 + 1 * n.val = (i 0).val; rw [e2, h0]; omega
  | ⟨1, _⟩ => show win1_1.index t (1 : Fin 2) * 256 + 1 * k.val = (i 1).val; rw [e3, h1]; omega

/-- The bias block of point `t` reads the bias row at outputs `1024 · ((t / 16) % 4) + n`. -/
theorem biasBlock_apply (c : Dev nD) (t : Fin cfg1.N) (n : Fin 1024) (i : S1x4096.Idx)
    (h1 : (i 1).val = 1024 * ((t.val / 16) % 4) + n.val) :
    biasBlock V c t (ix2 (0 : Fin 1) n) = V c main_v5 i := by
  obtain ⟨-, -, -, -, e4, e5, -⟩ := idx_facts t
  show V c main_v5 (((cfg1.win 2).blk t).view.emb (ix2 (0 : Fin 1) n)) = V c main_v5 i
  refine congrArg _ (funext fun a => Fin.ext ?_)
  match a with
  | ⟨0, _⟩ =>
    show win1_2.index t (0 : Fin 2) * 1 + 1 * 0 = (i 0).val
    have hi : (i 0).val < 1 := (i 0).isLt
    rw [e4]; omega
  | ⟨1, _⟩ => show win1_2.index t (1 : Fin 2) * 1024 + 1 * n.val = (i 1).val; rw [e5, h1]; omega

/-! ## The output tile after each point -/

/-- The product of the two blocks of point `t` at entry `(p, n)` of the output tile: the sum over the step's 256
    features of the batch row against the weight row. (Past the grid there is no point and the term is `0`.) -/
def term (c : Dev nD) (t : ℕ) (p : Fin 2048) (n : Fin 1024) : EReal :=
  if h : t < cfg1.N then
    ∑ k : Fin 256, batchBlock V c ⟨t, h⟩ (ix2 p k) * weightBlock V c ⟨t, h⟩ (ix2 n k)
  else 0

theorem term_of_lt (c : Dev nD) (t : Fin cfg1.N) (p : Fin 2048) (n : Fin 1024) :
    term V c t.val p n
      = ∑ k : Fin 256, batchBlock V c t (ix2 p k) * weightBlock V c t (ix2 n k) :=
  dif_pos t.isLt

/-- The tile after a point depends on the point's number only. -/
theorem outsAt_congr (c : Dev nD) (u v : ℕ) (hu : u < cfg1.N) (hv : v < cfg1.N) (e : u = v) :
    outsAt1 V c u hu = outsAt1 V c v hv := by subst e; rfl

/-- After the first step of a run the tile holds zero plus the step's product. -/
theorem first_apply (c : Dev nD) (t : Fin cfg1.N) (h0 : t.val % 16 = 0) (p : Fin 2048) (n : Fin 1024) :
    outsAt1 V c t.val t.isLt (ix2 p n) = zero + term V c t.val p n := by
  have h1 : ¬t.val % 16 = 15 := by omega
  rw [outsAt1_A V c t h0 h1,
    Cases.mm_first c (grid1.coords t) (ms1_0 t) (hs1_0 t) (ms1_1 t) (hs1_1 t) (ms1_2 t) (hs1_2 t) (ms1_3 t) (hs1_3 t)
      ((hcond1_0 t).mpr h0) (fun h => h1 ((hcond1_1 t).mp h)) (iblk1 V c 0 t) (iblk1 V c 1 t) (iblk1 V c 2 t),
    Payloads.mm2_apply, Payloads.mm1_apply, term_of_lt]

/-- After a middle step it holds what it held plus the step's product. -/
theorem middle_apply (c : Dev nD) (t : Fin cfg1.N) (h0 : ¬t.val % 16 = 0) (h1 : ¬t.val % 16 = 15) (p : Fin 2048) (n : Fin 1024) :
    outsAt1 V c t.val t.isLt (ix2 p n)
      = outsAt1 V c (t.val - 1) (Nat.lt_of_le_of_lt (Nat.sub_le _ _) t.isLt) (ix2 p n) + term V c t.val p n := by
  rw [outsAt1_B V c t h0 h1,
    Cases.mm_middle c (grid1.coords t) (ms1_0 t) (hs1_0 t) (ms1_1 t) (hs1_1 t) (ms1_2 t) (hs1_2 t) (ms1_3 t) (hs1_3 t)
      (fun h => h0 ((hcond1_0 t).mp h)) (fun h => h1 ((hcond1_1 t).mp h)) (iblk1 V c 0 t) (iblk1 V c 1 t) (iblk1 V c 2 t)
      (outsAt1 V c (t.val - 1) (Nat.lt_of_le_of_lt (Nat.sub_le _ _) t.isLt)),
    Payloads.mm2_apply, term_of_lt]

/-- After the last step it holds what it held plus the step's product, plus the bias row. -/
theorem last_apply (c : Dev nD) (t : Fin cfg1.N) (h0 : ¬t.val % 16 = 0) (h1 : t.val % 16 = 15) (p : Fin 2048) (n : Fin 1024) :
    outsAt1 V c t.val t.isLt (ix2 p n)
      = (outsAt1 V c (t.val - 1) (Nat.lt_of_le_of_lt (Nat.sub_le _ _) t.isLt) (ix2 p n) + term V c t.val p n)
        + biasBlock V c t (ix2 (0 : Fin 1) n) := by
  rw [outsAt1_C V c t h0 h1,
    Cases.mm_last c (grid1.coords t) (ms1_0 t) (hs1_0 t) (ms1_1 t) (hs1_1 t) (ms1_2 t) (hs1_2 t) (ms1_3 t) (hs1_3 t)
      (fun h => h0 ((hcond1_0 t).mp h)) ((hcond1_1 t).mpr h1) (iblk1 V c 0 t) (iblk1 V c 1 t) (iblk1 V c 2 t)
      (outsAt1 V c (t.val - 1) (Nat.lt_of_le_of_lt (Nat.sub_le _ _) t.isLt)),
    Payloads.mm3_apply, Payloads.mm2_apply, term_of_lt]

/-- Within a run of sixteen steps — points `16 q … 16 q + 15` — the tile after step `j < 15` holds zero plus the
    products of the run's steps so far: by induction on the step. -/
theorem run_apply (c : Dev nD) (q : ℕ) : ∀ (j : ℕ), j < 15 → ∀ (h : 16 * q + j < cfg1.N) (p : Fin 2048) (n : Fin 1024),
    outsAt1 V c (16 * q + j) h (ix2 p n) = zero + ∑ s ∈ Finset.range (j + 1), term V c (16 * q + s) p n
  | 0, _, h, p, n => by
    rw [Finset.sum_range_one]
    exact first_apply V c ⟨16 * q + 0, h⟩ (by show (16 * q + 0) % 16 = 0; omega) p n
  | j + 1, hj, h, p, n => by
    have hm := middle_apply V c ⟨16 * q + (j + 1), h⟩ (by show ¬(16 * q + (j + 1)) % 16 = 0; omega)
      (by show ¬(16 * q + (j + 1)) % 16 = 15; omega) p n
    rw [Finset.sum_range_succ _ (j + 1), ← add_assoc (zero : EReal), ← run_apply c q j (by omega) (Nat.lt_of_succ_lt h) p n]
    refine hm.trans ?_
    rw [outsAt_congr V c _ (16 * q + j) _ (Nat.lt_of_succ_lt h) (by show 16 * q + (j + 1) - 1 = 16 * q + j; omega)]

/-- At the last step of a run the tile holds zero plus the sixteen products of the run, plus the bias row. -/
theorem flush_apply (c : Dev nD) (t : Fin cfg1.N) (h15 : t.val % 16 = 15) (p : Fin 2048) (n : Fin 1024) :
    outsAt1 V c t.val t.isLt (ix2 p n)
      = (zero + ∑ s ∈ Finset.range 16, term V c (16 * (t.val / 16) + s) p n)
        + biasBlock V c t (ix2 (0 : Fin 1) n) := by
  have hN : cfg1.N = 256 := N_1
  have ht : t.val < 256 := lt_of_lt_of_eq t.isLt hN
  have e : 16 * (t.val / 16) + 15 = t.val := by omega
  rw [last_apply V c t (by omega) h15 p n,
    outsAt_congr V c (t.val - 1) (16 * (t.val / 16) + 14) _ (by omega) (by omega),
    run_apply V c (t.val / 16) 14 (by omega) _ p n, Finset.sum_range_succ _ 15, ← add_assoc (zero : EReal), e]

/-! ## The output array -/

/-- What the output array ends holding: at `(b, o)` zero plus the sixteen feature blocks' sums of
    `x (b, f) · w (o, f)`, plus the bias row at `o`. -/
def G (c : Dev nD) : S8192x4096.Idx → EReal := fun i =>
  (zero + ∑ k : Fin 16, blockDot (V c main_arg0) (fun o f => V c main_v0_0 (ix2 o f)) (i 0) (i 1) k)
    + V c main_v5 (ix2 (0 : Fin 1) (i 1))

/-- The product of a point's blocks at `(p, n)` is the feature block's sum at the entry of the array the point's tile
    puts there: point `t` is step `t % 16` of row tile `t / 64`, column tile `(t / 16) % 4`. -/
theorem term_eq (c : Dev nD) (t : Fin cfg1.N) (p : Fin 2048) (n : Fin 1024) (i : S8192x4096.Idx)
    (h0 : (i 0).val = 2048 * (t.val / 64) + p.val) (h1 : (i 1).val = 1024 * ((t.val / 16) % 4) + n.val)
    (k : Fin 16) (hk : t.val % 16 = k.val) :
    term V c t.val p n = blockDot (V c main_arg0) (fun o f => V c main_v0_0 (ix2 o f)) (i 0) (i 1) k := by
  rw [term_of_lt]
  unfold blockDot
  refine Finset.sum_congr rfl fun j _ => ?_
  rw [batchBlock_apply V c t p j (ix2 (i 0) (featIx k j)) h0 (by show 256 * k.val + j.val = _; rw [hk]),
    weightBlock_apply V c t n j (ix2 (i 1) (featIx k j)) h1 (by show 256 * k.val + j.val = _; rw [hk])]

/-- So at the last step of a run the tile holds, at `(p, n)`, the array's final entry there. -/
theorem outsAt_last (c : Dev nD) (t : Fin cfg1.N) (h15 : t.val % 16 = 15) (p : Fin 2048) (n : Fin 1024) (i : S8192x4096.Idx)
    (h0 : (i 0).val = 2048 * (t.val / 64) + p.val) (h1 : (i 1).val = 1024 * ((t.val / 16) % 4) + n.val) :
    outsAt1 V c t.val t.isLt (ix2 p n) = G V c i := by
  have hN : cfg1.N = 256 := N_1
  have ht : t.val < 256 := lt_of_lt_of_eq t.isLt hN
  rw [flush_apply V c t h15 p n, biasBlock_apply V c t n (ix2 (0 : Fin 1) (i 1)) h1, Finset.sum_range]
  unfold G
  congr 2
  refine Finset.sum_congr rfl fun k _ => ?_
  have hk : k.val < 16 := k.isLt
  exact term_eq V c ⟨16 * (t.val / 16) + k.val, by omega⟩ p n i
    (by show (i 0).val = 2048 * ((16 * (t.val / 16) + k.val) / 64) + p.val; omega)
    (by show (i 1).val = 1024 * (((16 * (t.val / 16) + k.val) / 16) % 4) + n.val; omega)
    k (by show (16 * (t.val / 16) + k.val) % 16 = k.val; omega)

/-- What a point writes back is its block of that array. -/
theorem flushed_eq (c : Dev nD) (t : Fin cfg1.N) (hf : (cfg1.win 3).flush t = true) :
    (dat1 V c).flushed 3 t = ((cfg1.win 3).blk t).view.read (Elt Ideal) (G V c) := by
  have h15 : t.val % 16 = 15 := (flush1_3 t).mp hf
  obtain ⟨-, -, -, -, -, -, e6, e7⟩ := idx_facts t
  show (cfg1.win 3).cut (grid1.coords t) ((dat1 V c).after 3 t) = _
  rw [after1_3]
  funext y
  show outsAt1 V c t.val t.isLt y = G V c (((cfg1.win 3).blk t).view.emb y)
  have hy : (y : S2048x1024.Idx) = ix2 (y 0) (y 1) := eq_ix2 (y : S2048x1024.Idx)
  refine (congrArg (outsAt1 V c t.val t.isLt) hy).trans ?_
  exact outsAt_last V c t h15 (y 0) (y 1) _
    (by show win1_3.index t (0 : Fin 2) * 2048 + 1 * (y 0).val = _; rw [e6]; omega)
    (by show win1_3.index t (1 : Fin 2) * 1024 + 1 * (y 1).val = _; rw [e7]; omega)

/-- An index of the array is in point `t`'s block iff each coordinate is in the block's range on its axis. -/
theorem mem_blk (t : Fin cfg1.N) (i : S8192x4096.Idx) :
    i ∈ ((cfg1.win 3).blk t).view.set
      ↔ ∀ a : Fin 2, win1_3.index t a * S2048x1024.size a ≤ (i a).val ∧ (i a).val < win1_3.index t a * S2048x1024.size a + S2048x1024.size a := by
  show i ∈ ((View.whole main_v6).slice (win1_3.rect t)).set ↔ _
  rw [View.set_slice_whole, Rect.mem_set_unit]
  exact Iff.rfl

/-- Every entry `(r, o)` of the array is in the tile of row tile `r / 2048`, column tile `o / 1024`, which the last
    step of that tile's run writes back. -/
theorem cover (i : S8192x4096.Idx) :
    ∃ t : Fin cfg1.N, (cfg1.win 3).flush t = true ∧ i ∈ ((cfg1.win 3).blk t).view.set := by
  have hN : cfg1.N = 256 := N_1
  have hi0 : (i 0).val < 8192 := (i 0).isLt
  have hi1 : (i 1).val < 4096 := (i 1).isLt
  obtain ⟨t, ht⟩ : ∃ t : Fin cfg1.N, t.val = 16 * (4 * ((i 0).val / 2048) + (i 1).val / 1024) + 15 :=
    ⟨⟨16 * (4 * ((i 0).val / 2048) + (i 1).val / 1024) + 15, by omega⟩, rfl⟩
  obtain ⟨-, -, -, -, -, -, e6, e7⟩ := idx_facts t
  refine ⟨t, (flush1_3 t).mpr (by omega), ?_⟩
  rw [mem_blk]
  intro a
  match a with
  | ⟨0, _⟩ => show win1_3.index t (0 : Fin 2) * 2048 ≤ (i 0).val ∧ (i 0).val < win1_3.index t (0 : Fin 2) * 2048 + 2048; rw [e6]; omega
  | ⟨1, _⟩ => show win1_3.index t (1 : Fin 2) * 1024 ≤ (i 1).val ∧ (i 1).val < win1_3.index t (1 : Fin 2) * 1024 + 1024; rw [e7]; omega

/-- THE PRODUCT REGION'S RESULT: the output array ends holding, at `(b, o)`, zero plus the sixteen feature blocks'
    sums of `x (b, f) · w (o, f)`, plus the bias row at `o`. -/
theorem final_out (c : Dev nD) :
    (dat1 V c).arrAt 3 cfg1.N = fun i : S8192x4096.Idx =>
      (Cert.SampledLinear.zero + ∑ k : Fin 16, Cert.SampledLinear.blockDot (V c main_arg0)
        (fun o f => V c main_v0_0 (ValueIdx.ix2 o f)) (i 0) (i 1) k) + V c main_v5 (ValueIdx.ix2 (0 : Fin 1) (i 1)) :=
  (dat1 V c).arrAt_eq_of_cover 3 (G V c) (fun t hf => flushed_eq V c t hf) cover

end Cert.KernelIdeal.Product

end
-- ==== Proof.HostParts.lean ====
import proofs.«148630_j35313221108256_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

/-!
# The two stretches of host operations of the tiled evaluation, over any buffer contents

Between its two tiled passes the evaluation turns the one-entry block holding the weights' divergence into a scalar and
forms the sampled bias row `μ_b + e^{σ_b} · ε_b`; after the second pass it forms the bias's divergence
`-½ · Σ (1 + 2σ_b − μ_b² − e^{2σ_b})` and adds it to that scalar. Each stretch is a straight line of array operations, so
what a buffer holds afterwards is either what it held before (no operation writes it) or the operations' term over the
contents before. Both are stated here for arbitrary contents `W` before the stretch.
-/

noncomputable section

namespace Cert.KernelIdeal.HostParts

open Cert.KernelIdeal Cert.KernelIdeal.Gen Idealize.ShloMosaic Idealize.ShloMosaic.TcCoe Idealize.SL.Sem Idealize.ShloMosaic.StableHlo

variable (W : Valuation τ sig (Elt Ideal))

/-- The stretch after the second call writes only the scalars and vectors it forms: the layer's output array stays. -/
theorem after2_keep_v6 : StableHlo.after (hostOps2 (F := Ideal)) W (Proc.devRef .tc main_v6) = W (Proc.devRef .tc main_v6) :=
  StableHlo.after_of_forall_not_mem _ _ (List.forall_iff_forall_mem.mp (by
    simp only [hostOps2, List.Forall, StableHlo.nullary_writes, StableHlo.unary_writes, StableHlo.binary_writes,
      StableHlo.reshape_writes, Finset.mem_singleton]
    repeat' apply And.intro
    all_goals exact StableHlo.devRef_ne_of_ne (by decide)))

/-- The stretch between the two calls writes only the five values it forms: the batch stays. -/
theorem after1_keep_arg0 : StableHlo.after (hostOps1 (F := Ideal)) W (Proc.devRef .tc main_arg0) = W (Proc.devRef .tc main_arg0) :=
  StableHlo.after_of_forall_not_mem _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- … the sampled weights stay. -/
theorem after1_keep_v0_0 : StableHlo.after (hostOps1 (F := Ideal)) W (Proc.devRef .tc main_v0_0) = W (Proc.devRef .tc main_v0_0) :=
  StableHlo.after_of_forall_not_mem _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- … the bias means stay. -/
theorem after1_keep_arg3 : StableHlo.after (hostOps1 (F := Ideal)) W (Proc.devRef .tc main_arg3) = W (Proc.devRef .tc main_arg3) :=
  StableHlo.after_of_forall_not_mem _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- … the bias log-deviations stay. -/
theorem after1_keep_arg4 : StableHlo.after (hostOps1 (F := Ideal)) W (Proc.devRef .tc main_arg4) = W (Proc.devRef .tc main_arg4) :=
  StableHlo.after_of_forall_not_mem _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- The reported divergence: the weights' part, as it stood before the stretch, plus `-½` times the sum from zero over the
    bias entries of `1 + 2σ − μ² − e^{2σ}`. -/
theorem after2_v19 : StableHlo.after (hostOps2 (F := Ideal)) W (Proc.devRef .tc main_v19)
    = addf (W (Proc.devRef .tc main_v1))
        (mulf (constant (F := Ideal) S_ .f32 0xBF000000#32)
          (Host.reduceAdd
            (subf
              (subf
                (addf (broadcastInDim S4096 ![] bcast_S_S4096 (constant (F := Ideal) S_ .f32 0x3F800000#32))
                  (mulf (broadcastInDim S4096 ![] bcast_S_S4096 (constant (F := Ideal) S_ .f32 0x40000000#32))
                    (W (Proc.devRef .tc main_arg4))))
                (mulf (W (Proc.devRef .tc main_arg3)) (W (Proc.devRef .tc main_arg3))))
              (Host.exp
                (mulf (broadcastInDim S4096 ![] bcast_S_S4096 (constant (F := Ideal) S_ .f32 0x40000000#32))
                  (W (Proc.devRef .tc main_arg4)))))
            (constant (F := Ideal) S_ .f32 0x00000000#32) reducesTo_S4096_S_d0 h_S_)) := by
  after_results

/-- The weights' divergence as a scalar: the one-entry block recast to rank zero. -/
theorem after1_v1 : StableHlo.after (hostOps1 (F := Ideal)) W (Proc.devRef .tc main_v1)
    = shapeCast S_ (W (Proc.devRef .tc main_v0_1)) shapeCasts_S1x1_S_ := by
  after_results
  rfl

/-- Read at its one index, that scalar is the block's entry `(0, 0)`: both sit at row-major position `0`. -/
theorem after1_v1_apply (j : S_.Idx) : StableHlo.after (hostOps1 (F := Ideal)) W (Proc.devRef .tc main_v1) j
    = W (Proc.devRef .tc main_v0_1) (ValueIdx.ix2 (0 : Fin 1) (0 : Fin 1)) := by
  rw [after1_v1]
  refine shapeCast_apply (s := S1x1) (t := S_) _ _ j (ValueIdx.ix2 (0 : Fin 1) (0 : Fin 1)) ?_
  rw [Shape.rowMajor_val_two]
  have h : (S_.rowMajor j).val < 1 := (S_.rowMajor j).isLt
  show (0 : ℕ) * 1 + 0 = _
  omega

/-- The sampled bias as a one-row array: `μ_b + e^{σ_b} · ε_b`, entry by entry, recast from a vector to a single row. -/
theorem after1_v5 : StableHlo.after (hostOps1 (F := Ideal)) W (Proc.devRef .tc main_v5)
    = (shapeCast S1x4096 (addf (W (Proc.devRef .tc main_arg3) : FVec Ideal S4096 .f32)
        (mulf (Host.exp (W (Proc.devRef .tc main_arg4) : FVec Ideal S4096 .f32)) (W (Proc.devRef .tc main_arg6) : FVec Ideal S4096 .f32)))
        shapeCasts_S4096_S1x4096 : FVec Ideal S1x4096 .f32) := by
  after_results
  rfl

/-- Entry `(0, q)` of that row is the sampled bias at `q`: the row's position `0 · 4096 + q` is the vector's position `q`. -/
theorem after1_v5_apply (q : Fin 4096) : StableHlo.after (hostOps1 (F := Ideal)) W (Proc.devRef .tc main_v5) (ValueIdx.ix2 (0 : Fin 1) q)
    = @HAdd.hAdd EReal EReal EReal instHAdd (W (Proc.devRef .tc main_arg3) (ValueIdx.ix1 q))
        (@HMul.hMul EReal EReal EReal instHMul (Ideal.exp (W (Proc.devRef .tc main_arg4) (ValueIdx.ix1 q))) (W (Proc.devRef .tc main_arg6) (ValueIdx.ix1 q))) := by
  rw [after1_v5]
  refine (shapeCast_apply (s := S4096) (t := S1x4096) _ _ (ValueIdx.ix2 (0 : Fin 1) q) (ValueIdx.ix1 q) ?_).trans ?_
  · rw [Shape.rowMajor_val_two, Shape.rowMajor_val_one]
    show (q : ℕ) = (0 : ℕ) * 4096 + (q : ℕ)
    omega
  · rfl

end Cert.KernelIdeal.HostParts

end
-- ==== Proof.Law.lean ====
import proofs.«148630_j35313221108256_2_alg».proof.Proof.Spec

/-!
# The algebra behind the two spellings of the sampled linear layer

Three facts over the extended reals.

* The four constants are `0`, `1`, `2` and `-½`.
* The feature sum taken in 16 blocks of 256 is the sum over all 4096 features: `(k, j) ↦ 256·k + j` is a bijection
  from the pairs (block, position) onto the features, and a finite sum in a commutative monoid may be re-indexed.
* For finite means and log-deviations the divergence formed tile by tile is the divergence formed in one sum: every
  term is then a real number, `e^σ · e^σ = e^{2σ}`, the factor `-½` distributes over a finite sum of reals, and the
  32 tiles of 1024 × 512 entries partition the 4096 × 4096 entries.
-/

noncomputable section

namespace Cert.SampledLinear

open Idealize.ShloMosaic Idealize.ShloMosaic.ValueIdx
open scoped BigOperators

/-! ## The constants -/

/-- The all-zero word denotes `0`. -/
theorem zero_eq : zero = 0 := by
  simp [Ideal.ofBits, Ideal.ieee]

/-- Sign `+`, exponent field `127`, no fraction: `2^23 · 2^(127 - 127 - 23) = 1`. -/
theorem one_eq : one = ((1 : ℝ) : EReal) := by
  simp [Ideal.ofBits, Ideal.ieee, -EReal.coe_mul]; norm_num

/-- Sign `+`, exponent field `128`, no fraction: `2^23 · 2^(128 - 127 - 23) = 2`. -/
theorem two_eq : two = ((2 : ℝ) : EReal) := by
  simp [Ideal.ofBits, Ideal.ieee, -EReal.coe_mul]; norm_num

/-- Sign `-`, exponent field `126`, no fraction: `-2^23 · 2^(126 - 127 - 23) = -½`. -/
theorem negHalf_eq : negHalf = ((-(1 / 2) : ℝ) : EReal) := by
  simp [Ideal.ofBits, Ideal.ieee, -EReal.coe_mul]; norm_num

/-! ## The feature sum in blocks -/

/-- The pairs (block, position) are the features: `(k, j) ↦ 256·k + j`, with inverse `i ↦ (i / 256, i % 256)`. -/
def blockEquiv : Fin 16 × Fin 256 ≃ Fin 4096 where
  toFun p := featIx p.1 p.2
  invFun i := (⟨i.val / 256, by have := i.isLt; omega⟩, ⟨i.val % 256, by omega⟩)
  left_inv p := by
    obtain ⟨k, j⟩ := p
    have hk := k.isLt
    have hj := j.isLt
    refine Prod.ext (Fin.ext ?_) (Fin.ext ?_)
    · show (256 * k.val + j.val) / 256 = k.val
      omega
    · show (256 * k.val + j.val) % 256 = j.val
      omega
  right_inv i := by
    refine Fin.ext ?_
    show 256 * (i.val / 256) + i.val % 256 = i.val
    omega

/-- A sum over the 4096 features, taken block by block. -/
theorem sum_blocks16 (f : Fin 4096 → EReal) : ∑ k : Fin 16, ∑ j : Fin 256, f (featIx k j) = ∑ i : Fin 4096, f i := by
  rw [← Fintype.sum_prod_type' (fun k j => f (featIx k j))]
  exact Fintype.sum_equiv blockEquiv _ _ (fun _ => rfl)

/-- The 16 block sums of a row of `x` against a row of `w` add up to the full sum over the features. -/
theorem sum_blockDot (x : SX.Idx → EReal) (w : Fin 4096 → Fin 4096 → EReal) (b : Fin 8192) (o : Fin 4096) :
    ∑ k : Fin 16, blockDot x w b o k = ∑ i : Fin 4096, x (ix2 b i) * w o i := by
  unfold blockDot
  exact sum_blocks16 (fun i => x (ix2 b i) * w o i)

/-! ## The divergence tile by tile -/

/-- The coercion of the reals into the extended reals carries a finite sum to the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One entry's term of the divergence for a real mean `m` and a real log-deviation `s`: `1 + 2s − m² − e^{2s}`. -/
def realTerm (m s : ℝ) : ℝ := ((1 + 2 * s) - m * m) - Real.exp (2 * s)

/-- At real arguments the term is that real number … -/
theorem klTerm_coe (m s : ℝ) : klTerm (m : EReal) (s : EReal) = (realTerm m s : EReal) := by
  unfold klTerm realTerm
  rw [one_eq, two_eq, ← EReal.coe_mul, Ideal.exp_coe, ← EReal.coe_mul, ← EReal.coe_add, ← EReal.coe_sub,
    ← EReal.coe_sub]

/-- … and so is the term with the variance written as a square, since `e^s · e^s = e^{s + s} = e^{2s}`. -/
theorem klTermSq_coe (m s : ℝ) : klTermSq (m : EReal) (s : EReal) = (realTerm m s : EReal) := by
  unfold klTermSq realTerm
  rw [one_eq, two_eq, Ideal.exp_coe, ← EReal.coe_mul, ← EReal.coe_mul, ← EReal.coe_mul, ← EReal.coe_add,
    ← EReal.coe_sub, ← EReal.coe_sub, ← Real.exp_add, two_mul]

/-- The triples (tile, row in the tile, column in the tile) are the pairs (row, column): tile `t` lies in row
    `t / 8` and column `t % 8` of the 4 × 8 grid of tiles, so `(t, r, c) ↦ (1024·(t / 8) + r, 512·(t % 8) + c)`, with
    inverse `(a, b) ↦ (8·(a / 1024) + b / 512, a % 1024, b % 512)`. -/
def tilePairEquiv : Fin 32 × Fin 1024 × Fin 512 ≃ Fin 4096 × Fin 4096 where
  toFun p :=
    (⟨1024 * (p.1.val / 8) + p.2.1.val, by have := p.1.isLt; have := p.2.1.isLt; omega⟩,
      ⟨512 * (p.1.val % 8) + p.2.2.val, by have := p.2.2.isLt; omega⟩)
  invFun q :=
    (⟨8 * (q.1.val / 1024) + q.2.val / 512, by have := q.1.isLt; have := q.2.isLt; omega⟩,
      ⟨q.1.val % 1024, by omega⟩, ⟨q.2.val % 512, by omega⟩)
  left_inv p := by
    obtain ⟨t, r, c⟩ := p
    have ht := t.isLt
    have hr := r.isLt
    have hc := c.isLt
    refine Prod.ext (Fin.ext ?_) (Prod.ext (Fin.ext ?_) (Fin.ext ?_))
    · show 8 * ((1024 * (t.val / 8) + r.val) / 1024) + (512 * (t.val % 8) + c.val) / 512 = t.val
      omega
    · show (1024 * (t.val / 8) + r.val) % 1024 = r.val
      omega
    · show (512 * (t.val % 8) + c.val) % 512 = c.val
      omega
  right_inv q := by
    obtain ⟨a, b⟩ := q
    have ha := a.isLt
    have hb := b.isLt
    refine Prod.ext (Fin.ext ?_) (Fin.ext ?_)
    · show 1024 * ((8 * (a.val / 1024) + b.val / 512) / 8) + a.val % 1024 = a.val
      omega
    · show 512 * ((8 * (a.val / 1024) + b.val / 512) % 8) + b.val % 512 = b.val
      omega

/-- A sum over all the entries, taken tile by tile, row by row within a tile: the tiles partition the entries. -/
theorem sum_tiles {M : Type*} [AddCommMonoid M] (g : SW.Idx → M) :
    ∑ t : Fin 32, ∑ r : Fin 1024, ∑ c : Fin 512, g (tileIx t r c) = ∑ i : SW.Idx, g i :=
  calc ∑ t : Fin 32, ∑ r : Fin 1024, ∑ c : Fin 512, g (tileIx t r c)
      = ∑ t : Fin 32, ∑ rc : Fin 1024 × Fin 512, g (tileIx t rc.1 rc.2) :=
        Finset.sum_congr rfl fun t _ => (Fintype.sum_prod_type' (fun r c => g (tileIx t r c))).symm
    _ = ∑ p : Fin 32 × Fin 1024 × Fin 512, g (tileIx p.1 p.2.1 p.2.2) :=
        (Fintype.sum_prod_type' (fun t (rc : Fin 1024 × Fin 512) => g (tileIx t rc.1 rc.2))).symm
    _ = ∑ q : Fin 4096 × Fin 4096, g (ix2 q.1 q.2) := Fintype.sum_equiv tilePairEquiv _ _ (fun _ => rfl)
    _ = ∑ a : Fin 4096, ∑ b : Fin 4096, g (ix2 a b) := Fintype.sum_prod_type' (fun a b => g (ix2 a b))
    _ = ∑ i : SW.Idx, g i := (sum_idx2 g).symm

/-- For finite means and log-deviations the divergence formed tile by tile is the divergence formed in one sum. Both
    are the real number `-½ · Σ (1 + 2σ − μ² − e^{2σ})`: in the tiled form `-½` multiplies each tile's real sum, and
    over the reals it comes out of the sum of the 32 tiles, which together are all the entries. -/
theorem klWTiles_eq_klW (mu sig : SW.Idx → EReal) (hmu : ∀ i, ∃ r : ℝ, mu i = (r : EReal))
    (hsig : ∀ i, ∃ r : ℝ, sig i = (r : EReal)) : klWTiles mu sig = klW mu sig := by
  choose M hM using hmu
  choose S hS using hsig
  obtain rfl : mu = fun i => (M i : EReal) := funext hM
  obtain rfl : sig = fun i => (S i : EReal) := funext hS
  -- each tile's sum is the coercion of a real sum
  have htile : ∀ t : Fin 32, tileSum (fun i => (M i : EReal)) (fun i => (S i : EReal)) t
      = ((∑ r : Fin 1024, ∑ c : Fin 512, realTerm (M (tileIx t r c)) (S (tileIx t r c)) : ℝ) : EReal) := by
    intro t
    unfold tileSum
    rw [coe_finset_sum]
    refine Finset.sum_congr rfl fun r _ => ?_
    rw [coe_finset_sum]
    exact Finset.sum_congr rfl fun c _ => klTermSq_coe _ _
  -- and so is the sum over all the entries
  have hall : (∑ i : SW.Idx, klTerm ((fun i => (M i : EReal)) i) ((fun i => (S i : EReal)) i))
      = ((∑ i : SW.Idx, realTerm (M i) (S i) : ℝ) : EReal) := by
    rw [coe_finset_sum]
    exact Finset.sum_congr rfl fun i _ => klTerm_coe _ _
  unfold klWTiles klW
  rw [hall, zero_eq, zero_add, negHalf_eq, ← EReal.coe_mul, ← sum_tiles (fun i => realTerm (M i) (S i)),
    Finset.mul_sum, coe_finset_sum]
  refine Finset.sum_congr rfl fun t _ => ?_
  rw [htile t, ← EReal.coe_mul]

end Cert.SampledLinear

end
-- ==== Proof.Ref.lean ====
import proofs.«148630_j35313221108256_2_alg».proof.Proof.Gen.ReferenceIdeal.Read
import proofs.«148630_j35313221108256_2_alg».proof.Proof.Spec

/-!
# The reference program computes the specification

The reference program's first result is the layer's output and its second the reported divergence, entry by entry:
every operation of the program is read at an index, the composed index maps of the layout operations are identified
with the coordinates of the index, and what is left is the specification's formula.
-/

noncomputable section

namespace Cert.ReferenceIdeal.RefValue

open Cert.ReferenceIdeal Cert.ReferenceIdeal.Read Cert.SampledLinear
open Idealize.ShloMosaic Idealize.ShloMosaic.ValueIdx
open scoped BigOperators

/-- The program's first result is the layer's output: at `(p, q)` the sum over the features `k` of
    `x (p, k) · w (q, k)`, plus the sampled bias at `q`. -/
theorem ref_out (x0 : S8192x4096.Idx → EReal) (x1 x2 x5 : S4096x4096.Idx → EReal) (x3 x4 x6 : S4096.Idx → EReal) :
    val_main_v9 (F := Ideal) x0 x1 x2 x3 x4 x5 x6 = out x0 x1 x2 x5 x3 x4 x6 := by
  funext i
  obtain ⟨p, q, rfl⟩ : ∃ (p : Fin 8192) (q : Fin 4096), i = ix2 p q := ⟨i 0, i 1, eq_ix2 i⟩
  -- the product reads its left operand at `(p, k)` and its right operand at `(q, k)`
  have el : ∀ k : Fin 4096, lidx_main_v6 (ix2 p q) k = ix2 p k := fun k =>
    funext fun a => Fin.ext (by match a with | ⟨0, _⟩ => rfl | ⟨1, _⟩ => rfl)
  have er : ∀ k : Fin 4096, ridx_main_v6 (ix2 p q) k = ix2 q k := fun k =>
    funext fun a => Fin.ext (by match a with | ⟨0, _⟩ => rfl | ⟨1, _⟩ => rfl)
  -- the two broadcasts of the bias read it at `q`
  have eb : idx_main_v7 (idx_main_v8 (ix2 p q)) = ix1 q :=
    funext fun a => Fin.ext (by match a with | ⟨0, _⟩ => rfl)
  rw [val_main_v9_apply, val_main_v6_apply, val_main_v8_apply, val_main_v7_apply, val_main_v5_apply,
    val_main_v4_apply, val_main_v3_apply]
  simp only [el, er, eb, val_main_v2_apply, val_main_v1_apply, val_main_v0_apply, Ideal.addf_def, Ideal.mulf_def,
    Ideal.hostUnary_exp_def]
  rfl

/-- The program's second result is the reported divergence: `-½` times the sum of the weights' terms, plus `-½`
    times the sum of the bias entries' terms. -/
theorem ref_kl (x1 x2 : S4096x4096.Idx → EReal) (x3 x4 : S4096.Idx → EReal) :
    val_main_v34 (F := Ideal) x1 x2 x3 x4 = kl x1 x2 x3 x4 := by
  funext i
  rw [val_main_v34_apply, val_main_v24_apply, val_main_v23_apply, val_main_v33_apply, val_main_v32_apply]
  simp only [val_main_v22_apply, val_main_v21_apply, val_main_v19_apply, val_main_v18_apply, val_main_v17_apply,
    val_main_v16_apply, val_main_v20_apply, val_main_v12_apply, val_main_v11_apply, val_main_v10_apply,
    val_main_v31_apply, val_main_v30_apply, val_main_v28_apply, val_main_v27_apply, val_main_v26_apply,
    val_main_v25_apply, val_main_v29_apply, val_main_v15_apply, val_main_v14_apply, val_main_v13_apply,
    val_main_cst_apply, val_main_cst_0_apply, val_main_cst_1_apply, val_main_cst_2_apply, val_main_cst_3_apply,
    val_main_cst_4_apply, val_main_cst_5_apply, val_main_cst_6_apply, val_main_cst_7_apply, val_main_cst_8_apply,
    Ideal.addf_def, Ideal.mulf_def, Ideal.subf_def, Ideal.hostUnary_exp_def, Ideal.ofBits_def]
  rfl

/-- The bias's divergence as a host program spells it — `1 + 2σ − μ² − e^{2σ}` entry by entry, the constants broadcast
    from single numbers, summed from zero and multiplied by `-½` — is the specification's, whatever witnesses of the
    shape facts the program carries. -/
theorem host_klB (hb : SS.BroadcastsInDim SV (![] : Fin 0 → Fin SV.rank)) (hr : SV.ReducesTo [0] SS) (h0 : 0 < SS.numel)
    (x3 x4 : SV.Idx → EReal) :
    mulf (constant (F := Ideal) SS .f32 0xBF000000#32)
      (Host.reduceAdd
        (subf
          (subf
            (addf (broadcastInDim SV ![] hb (constant (F := Ideal) SS .f32 0x3F800000#32))
              (mulf (broadcastInDim SV ![] hb (constant (F := Ideal) SS .f32 0x40000000#32)) x4))
            (mulf x3 x3))
          (Host.exp (mulf (broadcastInDim SV ![] hb (constant (F := Ideal) SS .f32 0x40000000#32)) x4)))
        (constant (F := Ideal) SS .f32 0x00000000#32) hr h0)
      = fun _ => klB x3 x4 := by
  funext i
  -- a number broadcast to the vector reads that number at every entry
  have hbc : ∀ (c : SS.Idx → EReal) (j : SV.Idx), broadcastInDim SV ![] hb c j = c ix0 := fun c j =>
    broadcastInDim_apply _ hb c j ix0 (fun a => a.elim0)
  rw [mulf_apply]
  simp only [Host.reduceAdd, Ideal.hostReduceAdd_def]
  rw [Ideal.hostReduceAdd_total hr (fun b => b.elim0)]
  simp only [subf_apply, addf_apply, mulf_apply, hbc, constant_apply, Host.exp, Ideal.hostUnary_exp_def]
  rfl

end Cert.ReferenceIdeal.RefValue

end
-- ==== Proof.Tail.lean ====
import proofs.«148630_j35313221108256_2_alg».proof.Proof.R0
import proofs.«148630_j35313221108256_2_alg».proof.Proof.R1
import proofs.«148630_j35313221108256_2_alg».proof.Proof.HostParts
import proofs.«148630_j35313221108256_2_alg».proof.Proof.Law
import proofs.«148630_j35313221108256_2_alg».proof.Proof.Ref

/-!
# From the launch memory to the two results

The program's segments are folded over the launch memory: the first region leaves the sampled weights and the
tile-by-tile divergence; the host operations between the regions reshape the divergence to a scalar and form the sampled
bias row; the second region leaves the layer's output; the host operations after it form the bias's divergence and add
the two. Each buffer a later segment reads is traced back here to the launch memory's arguments, so that the two result
buffers end at the layer's output and at the reported divergence of those arguments. The feature sum's 16 blocks add up
to the whole sum with no condition; the tile-by-tile divergence is the divergence when the weight parameters are real
numbers, which is where the certificate's precondition is used.
-/

set_option maxRecDepth 16384

noncomputable section

namespace Cert.KernelIdeal.Tail

open Cert.KernelIdeal Cert.KernelIdeal.Gen Cert.SampledLinear
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! ## What the second region finds -/

/-- The batch is still the launch memory's: neither the first region nor the host operations before the second write it. -/
theorem entry_x (c : Dev nD) : V2 m ρ c main_arg0 = m ((c : Thread nD τ).loc main_arg0) :=
  (HostParts.after1_keep_arg0 (W1 m ρ c)).trans (W1_of_ne m ρ c main_arg0 (by decide))

/-- The weight array the second region reads is what the first region wrote: the sampled weights of the launch memory's
    means, log-deviations and noise. -/
theorem entry_w (c : Dev nD) : V2 m ρ c main_v0_0
    = Sampling.sampled (m ((c : Thread nD τ).loc main_arg1)) (m ((c : Thread nD τ).loc main_arg2)) (m ((c : Thread nD τ).loc main_arg5)) :=
  (HostParts.after1_keep_v0_0 (W1 m ρ c)).trans ((W1_arr m ρ c 3).trans (Sampling.final_w (V0 m ρ) c))

/-- The bias row the second region reads is the sampled bias of the launch memory's bias parameters. -/
theorem entry_bias (c : Dev nD) (q : Fin 4096) : V2 m ρ c main_v5 (ix2 (0 : Fin 1) q)
    = biasAt (m ((c : Thread nD τ).loc main_arg3)) (m ((c : Thread nD τ).loc main_arg4)) (m ((c : Thread nD τ).loc main_arg6)) q := by
  refine (HostParts.after1_v5_apply (W1 m ρ c) q).trans ?_
  rw [W1_of_ne m ρ c main_arg3 (by decide), W1_of_ne m ρ c main_arg4 (by decide), W1_of_ne m ρ c main_arg6 (by decide)]
  rfl

/-! ## The two results -/

/-- The output array ends at the layer's output of the launch memory's arguments. -/
theorem out_eq (c : Dev nD) : W4 m ρ c (Proc.devRef .tc main_v6)
    = out (m ((c : Thread nD τ).loc main_arg0)) (m ((c : Thread nD τ).loc main_arg1)) (m ((c : Thread nD τ).loc main_arg2))
        (m ((c : Thread nD τ).loc main_arg5)) (m ((c : Thread nD τ).loc main_arg3)) (m ((c : Thread nD τ).loc main_arg4))
        (m ((c : Thread nD τ).loc main_arg6)) := by
  refine (HostParts.after2_keep_v6 (W3 m ρ c)).trans ((W3_arr m ρ c 3).trans ((Product.final_out (V2 m ρ) c).trans ?_))
  funext i
  obtain ⟨p, q, rfl⟩ : ∃ (p : Fin 8192) (q : Fin 4096), i = ix2 p q := ⟨i 0, i 1, eq_ix2 i⟩
  show (zero + ∑ k : Fin 16, blockDot (V2 m ρ c main_arg0) (fun o f => V2 m ρ c main_v0_0 (ix2 o f)) p q k)
      + V2 m ρ c main_v5 (ix2 (0 : Fin 1) q) = _
  rw [entry_x m ρ c, entry_w m ρ c, entry_bias m ρ c q, sum_blockDot, zero_eq, zero_add]
  rfl

/-- The divergence ends at the reported divergence of the launch memory's parameters, when the weight means and
    log-deviations are real numbers. -/
theorem kl_eq (c : Dev nD)
    (hmu : ∀ i, ∃ r : ℝ, m ((c : Thread nD τ).loc main_arg1) i = (r : EReal))
    (hsig : ∀ i, ∃ r : ℝ, m ((c : Thread nD τ).loc main_arg2) i = (r : EReal)) :
    W4 m ρ c (Proc.devRef .tc main_v19)
      = kl (m ((c : Thread nD τ).loc main_arg1)) (m ((c : Thread nD τ).loc main_arg2)) (m ((c : Thread nD τ).loc main_arg3))
          (m ((c : Thread nD τ).loc main_arg4)) := by
  have e3 : W3 m ρ c (Proc.devRef .tc main_arg3) = m ((c : Thread nD τ).loc main_arg3) :=
    (W3_of_ne m ρ c main_arg3 (by decide)).trans ((HostParts.after1_keep_arg3 (W1 m ρ c)).trans (W1_of_ne m ρ c main_arg3 (by decide)))
  have e4 : W3 m ρ c (Proc.devRef .tc main_arg4) = m ((c : Thread nD τ).loc main_arg4) :=
    (W3_of_ne m ρ c main_arg4 (by decide)).trans ((HostParts.after1_keep_arg4 (W1 m ρ c)).trans (W1_of_ne m ρ c main_arg4 (by decide)))
  have e1 : ∀ j, W3 m ρ c (Proc.devRef .tc main_v1) j
      = klW (m ((c : Thread nD τ).loc main_arg1)) (m ((c : Thread nD τ).loc main_arg2)) := fun j => by
    rw [W3_of_ne m ρ c main_v1 (by decide)]
    refine (HostParts.after1_v1_apply (W1 m ρ c) j).trans ?_
    rw [W1_arr m ρ c 4, Sampling.final_acc (V0 m ρ) c]
    show zero + klWTiles (m ((c : Thread nD τ).loc main_arg1)) (m ((c : Thread nD τ).loc main_arg2)) = _
    rw [klWTiles_eq_klW _ _ hmu hsig, zero_eq, zero_add]
  refine (HostParts.after2_v19 (W3 m ρ c)).trans ?_
  rw [e3, e4]
  funext j
  have h2 := congrFun (Cert.ReferenceIdeal.RefValue.host_klB bcast_S_S4096 reducesTo_S4096_S_d0 h_S_
    (m ((c : Thread nD τ).loc main_arg3)) (m ((c : Thread nD τ).loc main_arg4))) j
  exact congrArg₂ (fun a b : EReal => a + b) (e1 j) h2

end Cert.KernelIdeal.Tail

end
-- ==== Proof.Finite.lean ====
import proofs.«148630_j35313221108256_2_alg».proof.Defs
import proofs.«148630_j35313221108256_2_alg».proof.Proof.Gen.Pre_finite_inputs
import Idealize.ShloMosaic.Lib.ReduceAll
import Idealize.ShloMosaic.Lib.ValueIdx

/-!
# The precondition makes every input a real number

The precondition is the conjunction, over the seven argument arrays `a`, of "every entry of `|a|` is strictly below `+∞`".
Over the extended reals `|x| = max x (-x)`, and `max x (-x) < ⊤` fails at both `⊤` and `⊥` (where `-x = ⊤`), so it holds
exactly when `x` is a real number. Read at one index, the conjunction being all ones therefore gives: every entry of every
argument is a real number; in particular the weight means and the log-deviations are.
-/

namespace Cert.SampledLinear.Finite

open Idealize.ShloMosaic Idealize.SL.Sem
open Cert.Pre_finite_inputs

/-- The rank-zero shape has a single index. -/
local instance : Subsingleton S_.Idx := ⟨fun a b => funext fun d => d.elim0⟩

/-- The word `0x7F800000` denotes `+∞`. -/
theorem inf_eq_top : Ideal.ofBits .f32 0x7F800000#32 = (⊤ : EReal) := by simp [Ideal.ofBits, Ideal.ieee]

/-- An extended real whose absolute value `max x (-x)` is strictly below `+∞` is a real number. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- One entry of `|a| < +∞`, the bound being the rank-zero constant `+∞` spread over the array's shape: that entry is real. -/
theorem real_of_entry {s : Shape} (hb : S_.BroadcastsInDim s (![] : Fin 0 → Fin s.rank)) (a : FVec Ideal s .f32) (i : s.Idx)
    (h : cmpf .olt (Host.absf a) (broadcastInDim s ![] hb (constant S_ .f32 0x7F800000#32)) i = 1#1) :
    ∃ r : ℝ, a i = (r : EReal) :=
  real_of_abs_lt_inf (a i) h

/-- The precondition, all ones, says every entry of every argument is a real number: its value at the one index is a
    seven-fold `and`, each conjunct an `and` over all entries of one array of the comparison `|a| < +∞`. -/
theorem real_of_fn [hP : Cert.Pre_finite_inputs.Facts]
    (a0 : FVec Ideal S8192x4096 .f32) (a1 a2 : FVec Ideal S4096x4096 .f32) (a3 a4 : FVec Ideal S4096 .f32)
    (a5 : FVec Ideal S4096x4096 .f32) (a6 : FVec Ideal S4096 .f32)
    (h : Cert.Pre_finite_inputs.fn (F := Ideal) a0 a1 a2 a3 a4 a5 a6 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) := by
  have h0 := congrFun h ValueIdx.ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_entry _ a0 i (Host.reduce_andi_all _ _ _ _ _ e0 i),
    fun i => real_of_entry _ a1 i (Host.reduce_andi_all _ _ _ _ _ e1 i),
    fun i => real_of_entry _ a2 i (Host.reduce_andi_all _ _ _ _ _ e2 i),
    fun i => real_of_entry _ a3 i (Host.reduce_andi_all _ _ _ _ _ e3 i),
    fun i => real_of_entry _ a4 i (Host.reduce_andi_all _ _ _ _ _ e4 i),
    fun i => real_of_entry _ a5 i (Host.reduce_andi_all _ _ _ _ _ e5 i),
    fun i => real_of_entry _ a6 i (Host.reduce_andi_all _ _ _ _ _ e6 i)⟩

/-- The certificate's precondition on a memory says the weight means and the log-deviations held there (and every other
    argument's entries) are real numbers, on every device. -/
theorem real_of_pre_all [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) :=
  real_of_fn _ _ _ _ _ _ _ (h c)

/-- The two facts the comparison of the divergences needs: the weight means and the log-deviations are real numbers. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) :=
  ⟨(real_of_pre_all m h c).2.1, (real_of_pre_all m h c).2.2.1⟩

end Cert.SampledLinear.Finite
-- ==== Proof.lean ====
/- A Bayesian linear layer as two pipelined kernels against its textbook formula, over the extended reals.

   The kernel program samples the weights `w = μ + e^σ · ε` tile by tile in a first region — accumulating on the way, per
   tile, `-½` times the tile's sum of `1 + 2σ − μ² − e^σ·e^σ` — and in a second region forms `x · wᵀ` in 16 blocks of 256
   features per output tile, adding the sampled bias row with the last block; host operations form the bias row, the
   bias's divergence, and the sum of the two divergences. The reference forms `x · wᵀ + b` by one contraction and the
   divergences by whole-array sums with the variance written `e^{2σ}`.

   Both results are one function of the arguments (Proof/Spec.lean): the 16 blocks of the feature sum add up to the
   whole sum (addition of extended reals is associative and commutative), and the tile-by-tile divergence is the
   whole-array one because for REAL parameters `e^σ · e^σ = e^{2σ}` and `-½` distributes over a sum of reals — this is
   where the precondition (every input finite) is used. The three frames are the generated ones (the reference's is
   its generated run with the results dropped); the ideal pass rewrote nothing, so its conjunct is trivial. -/
import proofs.«148630_j35313221108256_2_alg».proof.Defs
import proofs.«148630_j35313221108256_2_alg».proof.Proof.Gen.Kernel
import proofs.«148630_j35313221108256_2_alg».proof.Proof.Gen.Kernel.Skeleton
import proofs.«148630_j35313221108256_2_alg».proof.Proof.Gen.Kernel.Launch
import proofs.«148630_j35313221108256_2_alg».proof.Proof.Gen.Kernel.Points
import proofs.«148630_j35313221108256_2_alg».proof.Proof.Gen.Kernel.Frame
import proofs.«148630_j35313221108256_2_alg».proof.Proof.Gen.KernelIdeal
import proofs.«148630_j35313221108256_2_alg».proof.Proof.Gen.KernelIdeal.Skeleton
import proofs.«148630_j35313221108256_2_alg».proof.Proof.Gen.KernelIdeal.Launch
import proofs.«148630_j35313221108256_2_alg».proof.Proof.Gen.KernelIdeal.Points
import proofs.«148630_j35313221108256_2_alg».proof.Proof.Gen.KernelIdeal.Frame
import proofs.«148630_j35313221108256_2_alg».proof.Proof.Gen.ReferenceIdeal
import proofs.«148630_j35313221108256_2_alg».proof.Proof.Gen.Pre_finite_inputs
import proofs.«148630_j35313221108256_2_alg».proof.Proof.Gen.ReferenceIdeal.Run
import proofs.«148630_j35313221108256_2_alg».proof.Proof.Gen.ReferenceIdeal.Read
import proofs.«148630_j35313221108256_2_alg».proof.Proof.KRun
import proofs.«148630_j35313221108256_2_alg».proof.Proof.Tail
import proofs.«148630_j35313221108256_2_alg».proof.Proof.Ref
import proofs.«148630_j35313221108256_2_alg».proof.Proof.Finite
import Idealize.ShloMosaic.Adequacy
import Idealize.ShloMosaic.Init

noncomputable section

namespace Cert.Proof

open Idealize.ShloMosaic Idealize.SL.Sem

/-- The word-level kernel runs and leaves its arguments as launched. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- The reference's frame is its run with the results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both programs end with the layer's output and the reported divergence of the arguments. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.SampledLinear.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg5)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)),
    fun c => Cert.SampledLinear.kl (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Named.run (F := Ideal) m ρ)
    obtain ⟨hmu, hsig⟩ := Cert.SampledLinear.Finite.real_of_pre m hpre c
    exact ⟨(h c).1.trans (Cert.KernelIdeal.Tail.out_eq m ρ c), (h c).2.1.trans (Cert.KernelIdeal.Tail.kl_eq m ρ c hmu hsig), (h c).2.2⟩
  · refine (θ_run Cert.ReferenceIdeal.defs _ _).mono (fun r h c => ?_) (Cert.ReferenceIdeal.Value.run (F := Ideal) m' ρ')
    obtain ⟨a0, a1, a2, a3, a4, a5, a6⟩ := hagree c
    refine ⟨(h c).1.trans ?_, (h c).2.1.trans ?_, (h c).2.2⟩
    · rw [Cert.ReferenceIdeal.Read.val_main_v9_eq, Cert.ReferenceIdeal.RefValue.ref_out, a0, a1, a2, a3, a4, a5, a6]
    · rw [Cert.ReferenceIdeal.Read.val_main_v34_eq, Cert.ReferenceIdeal.RefValue.ref_kl, a1, a2, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
